-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x512 : Shape := ⟨3, ![4, 64, 512]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S4x64x512 : S_.BroadcastsInDim S4x64x512 (![] : Fin 0 → Fin S4x64x512.rank)
  reducesTo_S4x64x512_S_d0_1_2 : S4x64x512.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S4x64x512 .f32) (main_arg1 : FVec F S128x128 .f32) (main_arg2 : FVec F S128 .f32) (main_arg3 : FVec F S128x1 .f32) (main_arg4 : FVec F S1 .f32) : IVec S_ 1 :=
  let main_v0 : FVec F S4x64x512 .f32 := Host.absf main_arg0
  let main_cst : FVec F S_ .f32 := constant S_ .f32 0x7F800000#32
  let main_v1 : FVec F S4x64x512 .f32 := broadcastInDim S4x64x512 ![] bcast_S_S4x64x512 main_cst
  let main_v2 : IVec S4x64x512 1 := cmpf .olt main_v0 main_v1
  let main_c : IVec S_ 1 := constantI S_ 1 1#1
  let main_v3 : IVec S_ 1 := (fun x v => Host.reduce IntOp.andi x v reducesTo_S4x64x512_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1 .f32 := Host.absf main_arg3
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg4 main_v13 main_v16
-- ==== Kernel.lean ====
abbrev S4x64x512 : Shape := ⟨3, ![4, 64, 512]⟩
abbrev S128x128 : Shape := ⟨2, ![128, 128]⟩
abbrev S128 : Shape := ⟨1, ![128]⟩
abbrev S128x1 : Shape := ⟨2, ![128, 1]⟩
abbrev S1 : Shape := ⟨1, ![1]⟩
abbrev S64x128 : Shape := ⟨2, ![64, 128]⟩
abbrev S64x256 : Shape := ⟨2, ![64, 256]⟩
abbrev S4x512x256 : Shape := ⟨3, ![4, 512, 256]⟩
abbrev S1x64x512 : Shape := ⟨3, ![1, 64, 512]⟩
abbrev S1x512x256 : Shape := ⟨3, ![1, 512, 256]⟩
abbrev S64x512 : Shape := ⟨2, ![64, 512]⟩
abbrev S512x256 : Shape := ⟨2, ![512, 256]⟩
abbrev S4x512x128 : Shape := ⟨3, ![4, 512, 128]⟩
abbrev S1x128 : Shape := ⟨2, ![1, 128]⟩
abbrev S1x1 : Shape := ⟨2, ![1, 1]⟩
abbrev S4x512x512 : Shape := ⟨3, ![4, 512, 512]⟩
abbrev S1x128x128 : Shape := ⟨3, ![1, 128, 128]⟩
abbrev S128x1x128 : Shape := ⟨3, ![128, 1, 128]⟩
abbrev S128x128x128 : Shape := ⟨3, ![128, 128, 128]⟩
abbrev S1x1x128 : Shape := ⟨3, ![1, 1, 128]⟩

abbrev nBuf : Space → Nat
  | .hbm => 16
  | .vmem => 14
  | .smem => 0
  | _ => 0

abbrev bufTy : (tb : Table) → Fin (tcTables nBuf tb) → BufTy
  | .hbm, ⟨0, _⟩ => ⟨S4x64x512, .f32⟩
  | .hbm, ⟨1, _⟩ => ⟨S128x128, .f32⟩
  | .hbm, ⟨2, _⟩ => ⟨S128, .f32⟩
  | .hbm, ⟨3, _⟩ => ⟨S128x1, .f32⟩
  | .hbm, ⟨4, _⟩ => ⟨S1, .f32⟩
  | .hbm, ⟨5, _⟩ => ⟨S64x128, .f32⟩
  | .hbm, ⟨6, _⟩ => ⟨S64x128, .f32⟩
  | .hbm, ⟨7, _⟩ => ⟨S64x256, .f32⟩
  | .hbm, ⟨8, _⟩ => ⟨S4x512x256, .f32⟩
  | .hbm, ⟨9, _⟩ => ⟨S4x512x128, .f32⟩
  | .hbm, ⟨10, _⟩ => ⟨S4x512x128, .f32⟩
  | .hbm, ⟨11, _⟩ => ⟨S1x128, .f32⟩
  | .hbm, ⟨12, _⟩ => ⟨S128, .f32⟩
  | .hbm, ⟨13, _⟩ => ⟨S1x128, .f32⟩
  | .hbm, ⟨14, _⟩ => ⟨S1x1, .f32⟩
  | .hbm, ⟨15, _⟩ => ⟨S4x512x512, .f32⟩
  | .local _ .vmem, ⟨0, _⟩ => ⟨S1x64x512, .f32⟩
  | .local _ .vmem, ⟨1, _⟩ => ⟨S1x64x512, .f32⟩
  | .local _ .vmem, ⟨2, _⟩ => ⟨S64x256, .f32⟩
  | .local _ .vmem, ⟨3, _⟩ => ⟨S1x512x256, .f32⟩
  | .local _ .vmem, ⟨4, _⟩ => ⟨S1x512x256, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | .local _ .vmem, ⟨8, _⟩ => ⟨S1x128x128, .f32⟩
  | .local _ .vmem, ⟨9, _⟩ => ⟨S1x128, .f32⟩
  | .local _ .vmem, ⟨10, _⟩ => ⟨S1x128, .f32⟩
  | .local _ .vmem, ⟨11, _⟩ => ⟨S1x1, .f32⟩
  | .local _ .vmem, ⟨12, _⟩ => ⟨S1x128x128, .f32⟩
  | .local _ .vmem, ⟨13, _⟩ => ⟨S1x128x128, .f32⟩
  | _, _ => ⟨S4x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![4, 4, 4], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage1_0 : Fin 2 → Memref sig .tc .vmem S1x128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false, false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 2 → Memref sig .tc .vmem S1x128x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]

class Facts₀ : Prop where
  slices_S128x128_S64x128_0_0 : S128x128.Slices ![0, 0] S64x128
  slices_S128x128_S64x128_64_0 : S128x128.Slices ![64, 0] S64x128
  concatenates_S64x128_S64x128_S64x256_d1 : Shape.Concatenates [S64x128, S64x128] S64x256 1
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  shapeCasts_S512x256_S1x512x256 : S512x256.ShapeCasts S1x512x256
  slices_S4x512x256_S4x512x128_0_0_0 : S4x512x256.Slices ![0, 0, 0] S4x512x128
  slices_S4x512x256_S4x512x128_0_0_128 : S4x512x256.Slices ![0, 0, 128] S4x512x128
  shapeCasts_S128_S1x128 : S128.ShapeCasts S1x128
  shapeCasts_S128x1_S128 : S128x1.ShapeCasts S128
  shapeCasts_S1_S1x1 : S1.ShapeCasts S1x1
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S1x128_S1x128_0_0 : ∀ a, (![0, 0] : Fin 2 → Nat) a + S1x128.size a ≤ S1x128.size a
  h_S1x128 : 0 < S1x128.numel
  shapeCasts_S1x128_S128 : S1x128.ShapeCasts S128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S128x128_S128x1x128 : S128x128.ShapeCasts S128x1x128
  shapeCasts_S128x128_S1x128x128 : S128x128.ShapeCasts S1x128x128
  broadcasts_S128x1x128_S128x128x128 : S128x1x128.Broadcasts S128x128x128
  broadcasts_S1x128x128_S128x128x128 : S1x128x128.Broadcasts S128x128x128
  shapeCasts_S128_S1x1x128 : S128.ShapeCasts S1x1x128
  broadcasts_S1x1x128_S128x128x128 : S1x1x128.Broadcasts S128x128x128
  reduces_S128x128x128_S128x128 : S128x128x128.Reduces [2] S128x128
  iota_S128x128_d0_w32 : S128x128.Iotas .tc 32 [0]
  iota_S128x128_d1_w32 : S128x128.Iotas .tc 32 [1]
  natLt_1_32 : 1 < 32
  dot_S64x512_S64x256_S512x256_0_0_1_1_n_n_wf : DotDims.WF S64x512 S64x256 S512x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x512.size a ≤ S4x64x512.size a
  hwx0_0 : ∀ i : grid0.Coords, EltTy.bits .f32 = 32 ∨ (Rect.block (s := S4x64x512) S1x64x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .f32 = 32 ∨ (Rect.block (s := S64x256) S64x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x256.size a ≤ S4x512x256.size a
  hwx0_2 : ∀ i : grid0.Coords, EltTy.bits .f32 = 32 ∨ (Rect.block (s := S4x512x256) S1x512x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x128.size a ≤ S4x512x128.size a
  hwx1_0 : ∀ i : grid1.Coords, EltTy.bits .f32 = 32 ∨ (Rect.block (s := S4x512x128) S1x128x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x128.size a ≤ S4x512x128.size a
  hwx1_1 : ∀ i : grid1.Coords, EltTy.bits .f32 = 32 ∨ (Rect.block (s := S4x512x128) S1x128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x128x128.size a ≤ S4x512x512.size a
  hwx1_5 : ∀ i : grid1.Coords, EltTy.bits .f32 = 32 ∨ (Rect.block (s := S4x512x512) S1x128x128.size (cc1_transform_5 i) (hinb1_5 i)).WholeWords (EltTy.packing .f32)

variable [Facts₀]

def dot_S64x512_S64x256_S512x256_0_0_1_1_n_n : DotDims S64x512 S64x256 S512x256 where
  lhsContracting := [0]
  rhsContracting := [0]
  lhsNonContracting := [1]
  rhsNonContracting := [1]
  lhsBatch := []
  rhsBatch := []
  wf := dot_S64x512_S64x256_S512x256_0_0_1_1_n_n_wf

abbrev win0_0 : Pipeline.Window sig grid0 :=
  Pipeline.Window.ofSpec (Memref.whole main_arg0) S1x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S1x128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v10) S1x128x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4x64x512 : Shape := ⟨3, ![4, 64, 512]⟩
abbrev S128x128 : Shape := ⟨2, ![128, 128]⟩
abbrev S128 : Shape := ⟨1, ![128]⟩
abbrev S128x1 : Shape := ⟨2, ![128, 1]⟩
abbrev S1 : Shape := ⟨1, ![1]⟩
abbrev S4x512x64 : Shape := ⟨3, ![4, 512, 64]⟩
abbrev S4x512x1x64 : Shape := ⟨4, ![4, 512, 1, 64]⟩
abbrev S4x512x512x64 : Shape := ⟨4, ![4, 512, 512, 64]⟩
abbrev S4x1x512x64 : Shape := ⟨4, ![4, 1, 512, 64]⟩
abbrev S4x512x512x128 : Shape := ⟨4, ![4, 512, 512, 128]⟩
abbrev S1x1x1x128 : Shape := ⟨4, ![1, 1, 1, 128]⟩
abbrev S_ : Shape := ⟨0, ![]⟩
abbrev S4x512x512x1 : Shape := ⟨4, ![4, 512, 512, 1]⟩
abbrev S1x1x1x1 : Shape := ⟨4, ![1, 1, 1, 1]⟩
abbrev S4x512x512 : Shape := ⟨3, ![4, 512, 512]⟩
abbrev S512x512 : Shape := ⟨2, ![512, 512]⟩
abbrev S1x512x512 : Shape := ⟨3, ![1, 512, 512]⟩

abbrev nBuf : Space → Nat
  | .hbm => 37
  | .vmem => 0
  | .smem => 0
  | _ => 0

abbrev bufTy : (tb : Table) → Fin (tcTables nBuf tb) → BufTy
  | .hbm, ⟨0, _⟩ => ⟨S4x64x512, .f32⟩
  | .hbm, ⟨1, _⟩ => ⟨S128x128, .f32⟩
  | .hbm, ⟨2, _⟩ => ⟨S128, .f32⟩
  | .hbm, ⟨3, _⟩ => ⟨S128x1, .f32⟩
  | .hbm, ⟨4, _⟩ => ⟨S1, .f32⟩
  | .hbm, ⟨5, _⟩ => ⟨S4x512x64, .f32⟩
  | .hbm, ⟨6, _⟩ => ⟨S4x512x1x64, .f32⟩
  | .hbm, ⟨7, _⟩ => ⟨S4x512x512x64, .f32⟩
  | .hbm, ⟨8, _⟩ => ⟨S4x1x512x64, .f32⟩
  | .hbm, ⟨9, _⟩ => ⟨S4x512x512x64, .f32⟩
  | .hbm, ⟨10, _⟩ => ⟨S4x512x512x128, .f32⟩
  | .hbm, ⟨11, _⟩ => ⟨S4x512x512x128, .f32⟩
  | .hbm, ⟨12, _⟩ => ⟨S1x1x1x128, .f32⟩
  | .hbm, ⟨13, _⟩ => ⟨S4x512x512x128, .f32⟩
  | .hbm, ⟨14, _⟩ => ⟨S4x512x512x128, .f32⟩
  | .hbm, ⟨15, _⟩ => ⟨S_, .f32⟩
  | .hbm, ⟨16, _⟩ => ⟨S4x512x512x128, .f32⟩
  | .hbm, ⟨17, _⟩ => ⟨S4x512x512x128, .f32⟩
  | .hbm, ⟨18, _⟩ => ⟨S4x512x512x1, .f32⟩
  | .hbm, ⟨19, _⟩ => ⟨S1x1x1x1, .f32⟩
  | .hbm, ⟨20, _⟩ => ⟨S4x512x512x1, .f32⟩
  | .hbm, ⟨21, _⟩ => ⟨S4x512x512x1, .f32⟩
  | .hbm, ⟨22, _⟩ => ⟨S4x512x512, .f32⟩
  | .hbm, ⟨23, _⟩ => ⟨S_, .f32⟩
  | .hbm, ⟨24, _⟩ => ⟨S512x512, .f32⟩
  | .hbm, ⟨25, _⟩ => ⟨S512x512, .i32⟩
  | .hbm, ⟨26, _⟩ => ⟨S_, .i32⟩
  | .hbm, ⟨27, _⟩ => ⟨S512x512, .i32⟩
  | .hbm, ⟨28, _⟩ => ⟨S512x512, .i32⟩
  | .hbm, ⟨29, _⟩ => ⟨S512x512, .i32⟩
  | .hbm, ⟨30, _⟩ => ⟨S512x512, .i1⟩
  | .hbm, ⟨31, _⟩ => ⟨S_, .f32⟩
  | .hbm, ⟨32, _⟩ => ⟨S512x512, .f32⟩
  | .hbm, ⟨33, _⟩ => ⟨S512x512, .f32⟩
  | .hbm, ⟨34, _⟩ => ⟨S1x512x512, .f32⟩
  | .hbm, ⟨35, _⟩ => ⟨S4x512x512, .f32⟩
  | .hbm, ⟨36, _⟩ => ⟨S4x512x512, .f32⟩
  | _, _ => ⟨S4x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_cst : Ref sig .tc := ⟨.hbm, 15, rfl⟩
abbrev main_call0_v0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_call1_v0 : Ref sig .tc := ⟨.hbm, 25, rfl⟩
abbrev main_call1_c : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_cst : Ref sig .tc := ⟨.hbm, 31, rfl⟩
abbrev main_call1_v5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩

abbrev nD : Nat := 1
abbrev τ : Topo := Topo.v7x

variable {F : FTy → Type} [FloatOps F]

class Facts₀ : Prop where
  transposes_S4x64x512_S4x512x64_0_2_1 : S4x64x512.Transposes [0, 2, 1] S4x512x64
  bcast_S4x512x64_S4x512x1x64_0_1_3 : S4x512x64.BroadcastsInDim S4x512x1x64 (![0, 1, 3] : Fin 3 → Fin S4x512x1x64.rank)
  bcast_S4x512x1x64_S4x512x512x64_0_1_2_3 : S4x512x1x64.BroadcastsInDim S4x512x512x64 (![0, 1, 2, 3] : Fin 4 → Fin S4x512x512x64.rank)
  bcast_S4x512x64_S4x1x512x64_0_2_3 : S4x512x64.BroadcastsInDim S4x1x512x64 (![0, 2, 3] : Fin 3 → Fin S4x1x512x64.rank)
  bcast_S4x1x512x64_S4x512x512x64_0_1_2_3 : S4x1x512x64.BroadcastsInDim S4x512x512x64 (![0, 1, 2, 3] : Fin 4 → Fin S4x512x512x64.rank)
  concatenates_S4x512x512x64_S4x512x512x64_S4x512x512x128_d3 : Shape.Concatenates [S4x512x512x64, S4x512x512x64] S4x512x512x128 3
  bcast_S128_S1x1x1x128_3 : S128.BroadcastsInDim S1x1x1x128 (![3] : Fin 1 → Fin S1x1x1x128.rank)
  bcast_S1x1x1x128_S4x512x512x128_0_1_2_3 : S1x1x1x128.BroadcastsInDim S4x512x512x128 (![0, 1, 2, 3] : Fin 4 → Fin S4x512x512x128.rank)
  bcast_S_S4x512x512x128 : S_.BroadcastsInDim S4x512x512x128 (![] : Fin 0 → Fin S4x512x512x128.rank)
  bcast_S1_S1x1x1x1_3 : S1.BroadcastsInDim S1x1x1x1 (![3] : Fin 1 → Fin S1x1x1x1.rank)
  bcast_S1x1x1x1_S4x512x512x1_0_1_2_3 : S1x1x1x1.BroadcastsInDim S4x512x512x1 (![0, 1, 2, 3] : Fin 4 → Fin S4x512x512x1.rank)
  shapeCasts_S4x512x512x1_S4x512x512 : S4x512x512x1.ShapeCasts S4x512x512
  bcast_S_S512x512 : S_.BroadcastsInDim S512x512 (![] : Fin 0 → Fin S512x512.rank)
  bcast_S512x512_S1x512x512_1_2 : S512x512.BroadcastsInDim S1x512x512 (![1, 2] : Fin 2 → Fin S1x512x512.rank)
  bcast_S1x512x512_S4x512x512_0_1_2 : S1x512x512.BroadcastsInDim S4x512x512 (![0, 1, 2] : Fin 3 → Fin S4x512x512.rank)
  dot_S4x512x512x128_S128x128_S4x512x512x128_3_0_012_1_n_n_wf : DotDims.WF S4x512x512x128 S128x128 S4x512x512x128 [3] [0] [0, 1, 2] [1] [] []
  dot_S4x512x512x128_S128x1_S4x512x512x1_3_0_012_1_n_n_wf : DotDims.WF S4x512x512x128 S128x1 S4x512x512x1 [3] [0] [0, 1, 2] [1] [] []

variable [Facts₀]

def dot_S4x512x512x128_S128x128_S4x512x512x128_3_0_012_1_n_n : DotDims S4x512x512x128 S128x128 S4x512x512x128 where
  lhsContracting := [3]
  rhsContracting := [0]
  lhsNonContracting := [0, 1, 2]
  rhsNonContracting := [1]
  lhsBatch := []
  rhsBatch := []
  wf := dot_S4x512x512x128_S128x128_S4x512x512x128_3_0_012_1_n_n_wf
def dot_S4x512x512x128_S128x1_S4x512x512x1_3_0_012_1_n_n : DotDims S4x512x512x128 S128x1 S4x512x512x1 where
  lhsContracting := [3]
  rhsContracting := [0]
  lhsNonContracting := [0, 1, 2]
  rhsNonContracting := [1]
  lhsBatch := []
  rhsBatch := []
  wf := dot_S4x512x512x128_S128x1_S4x512x512x1_3_0_012_1_n_n_wf

class Facts : Prop extends Facts₀ where

variable [Facts]
-- ==== Proof.KernelRun.lean ====
/-
  The idealized kernel's run with its result named.

  The program is two pipelined regions among three stretches of host operations. Its run, from any launch memory,
  ends with every unscoped buffer of a core at the contents the last segment boundary assigns it: the launch
  memory pushed through the first stretch of host operations, the first region's write-backs, the second stretch,
  and the second region's write-backs. Read at the arguments that is the frame claim (they come back as launched);
  read at the result's buffer it names what the kernel computed, which is what the value proof starts from.
  The statement is the frame's with one more conjunct, and its proof the same launch over the same segments,
  reading one more buffer out of the final thread state.
-/
import proofs.«159363_j61323543052293_1_alg».proof.Proof.FrameKernelIdeal

set_option maxRecDepth 16384

noncomputable section

namespace Cert.KernelSide

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates without a fault; the result's buffer ends at the last
    boundary's contents and the five arguments end as launched. -/
theorem run_named : θ_run defs (onTc (τ := τ) (main (F := F))) ⟨m, fun _ => 0, ρ⟩ (fun r => ∀ c : Dev nD,
      r.2.mem ((c.tc : Thread nD τ).loc main_v10) = W4 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v10 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.KernelSide

end
-- ==== Proof.LibTileDot.lean ====
/-
  A tile product into the zero accumulator, read at one output index, at the ideal values and whatever precision
  the operation names: with the contraction running over one axis of extent `K`, the entry is the sum over
  `k : Fin K` of the left operand times the right operand, each read at the index the dimension numbers assign to
  the output index and `k`. The caller names the two operand indices as functions of `k`.
-/
import Idealize.ShloMosaic.Lib.ValueIdx
import Idealize.ShloMosaic.PureOps.Ideal.Laws

noncomputable section

namespace Cert.LibTileDot

open Idealize.ShloMosaic Idealize.ShloMosaic.ValueIdx

/-- The matrix unit's product of two tiles into a zero accumulator, at output index `j`: the sum over the one
    contracted axis, each factor read where the dimension numbers send `j` and `k`. -/
theorem matmul_zero_at {sl sr so : Shape} {φ₁ φ₂ : FTy} (d : DotDims sl sr so) (prec : Option ContractPrecision) (K : ℕ)
    (hr : d.contr.rank = 1) (hs : d.contr.size ⟨0, by omega⟩ = K)
    (lhs : FVec Ideal sl φ₁) (rhs : FVec Ideal sr φ₂) (j : so.Idx)
    (li : Fin K → sl.Idx) (ri : Fin K → sr.Idx)
    (hl : ∀ k, d.lhsIdx j ((contrEquiv1 d K hr hs).symm k) = li k)
    (hri : ∀ k, d.rhsIdx j ((contrEquiv1 d K hr hs).symm k) = ri k) :
    FloatOps.matmul d prec lhs rhs (constant so .f32 0x00000000#32) j = ∑ k : Fin K, lhs (li k) * rhs (ri k) := by
  rw [Ideal.matmul_constant_zero_apply, ← Equiv.sum_comp (contrEquiv1 d K hr hs).symm]
  exact Finset.sum_congr rfl fun k _ => by rw [hl k, hri k]

end Cert.LibTileDot

end
-- ==== Proof.LibUnitAxis.lean ====
/-
  Casts between a rank-2 shape `[a, b]` and the same data with a unit axis, leading `[1, a, b]` or in the middle
  `[a, 1, b]`, read at an index written by its coordinates: dropping a leading unit axis reads `(p, q)` at `(0, p, q)`,
  adding it reads `(o, p, q)` at `(p, q)`, dropping a middle unit axis reads `(p, q)` at `(p, 0, q)` — in each case the
  two indices have the same row-major position.
-/
import Idealize.ShloMosaic.Lib.ValueIdx
import Idealize.ShloMosaic.Lib.Pipeline.Value

noncomputable section

namespace Cert.LibUnitAxis

open Idealize.ShloMosaic Idealize.ShloMosaic.ValueIdx

/-- `[1, a, b]` viewed as `[a, b]`: entry `(p, q)` is entry `(0, p, q)`. -/
theorem dropUnit_ix {α : Type} {a b : Nat} (v : (⟨3, ![1, a, b]⟩ : Shape).Idx → α)
    (h : (⟨3, ![1, a, b]⟩ : Shape).ShapeCasts ⟨2, ![a, b]⟩) (p : Fin a) (q : Fin b) :
    shapeCast ⟨2, ![a, b]⟩ v h (ix2 p q) = v (ix3 (0 : Fin 1) p q) :=
  shapeCast_apply v h _ _ (by
    rw [Shape.rowMajor_val_three, Shape.rowMajor_val_two]
    show (0 * a + p.val) * b + q.val = p.val * b + q.val
    simp)

/-- `[a, b]` viewed as `[1, a, b]`: entry `(o, p, q)` is entry `(p, q)`. -/
theorem addUnit_ix {α : Type} {a b : Nat} (v : (⟨2, ![a, b]⟩ : Shape).Idx → α)
    (h : (⟨2, ![a, b]⟩ : Shape).ShapeCasts ⟨3, ![1, a, b]⟩) (o : Fin 1) (p : Fin a) (q : Fin b) :
    shapeCast ⟨3, ![1, a, b]⟩ v h (ix3 o p q) = v (ix2 p q) :=
  shapeCast_apply v h _ _ (by
    rw [Shape.rowMajor_val_three, Shape.rowMajor_val_two]
    show p.val * b + q.val = (o.val * a + p.val) * b + q.val
    have : o.val = 0 := by omega
    simp [this])

/-- `[a, 1, b]` viewed as `[a, b]`: entry `(p, q)` is entry `(p, 0, q)`. -/
theorem dropMid_ix {α : Type} {a b : Nat} (v : (⟨3, ![a, 1, b]⟩ : Shape).Idx → α)
    (h : (⟨3, ![a, 1, b]⟩ : Shape).ShapeCasts ⟨2, ![a, b]⟩) (p : Fin a) (q : Fin b) :
    shapeCast ⟨2, ![a, b]⟩ v h (ix2 p q) = v (ix3 p (0 : Fin 1) q) :=
  shapeCast_apply v h _ _ (by
    rw [Shape.rowMajor_val_three, Shape.rowMajor_val_two]
    show (p.val * 1 + 0) * b + q.val = p.val * b + q.val
    simp)

end Cert.LibUnitAxis

end
-- ==== Proof.LibMidUnit.lean ====
/-
  A rank-2 array `[a, b]` viewed with a unit axis in the middle, `[a, 1, b]`, read at an index written by its coordinates:
  entry `(p, u, q)` is entry `(p, q)` — the two indices have the same row-major position, the unit coordinate being 0.
-/
import Idealize.ShloMosaic.Lib.ValueIdx
import Idealize.ShloMosaic.Lib.Pipeline.Value

noncomputable section

namespace Cert.LibMidUnit

open Idealize.ShloMosaic Idealize.ShloMosaic.ValueIdx

/-- `[a, b]` viewed as `[a, 1, b]`: entry `(p, u, q)` is entry `(p, q)`. -/
theorem addMid_ix {α : Type} {a b : Nat} (v : (⟨2, ![a, b]⟩ : Shape).Idx → α)
    (h : (⟨2, ![a, b]⟩ : Shape).ShapeCasts ⟨3, ![a, 1, b]⟩) (p : Fin a) (u : Fin 1) (q : Fin b) :
    shapeCast ⟨3, ![a, 1, b]⟩ v h (ix3 p u q) = v (ix2 p q) :=
  shapeCast_apply v h _ _ (by
    rw [Shape.rowMajor_val_three, Shape.rowMajor_val_two]
    show p.val * b + q.val = (p.val * 1 + u.val) * b + q.val
    have hu : u.val = 0 := by omega
    rw [hu, Nat.mul_one, Nat.add_zero])

end Cert.LibMidUnit

end
-- ==== Proof.Payloads.lean ====
/-
  The kernel's two stored values read at one index, at the ideal values: pure functions of the loaded blocks.

  Region 0 stores, for one batch entry, the product of the transposed block of `x` (64 channels by 512 positions) with
  the 64-by-256 weight block: entry `(0, n, k)` is the sum over the channels `c` of `x[0, c, n] · w[c, k]`.

  Region 1 stores one 128-by-128 tile of scores. With `L` the left tile, `R` the right tile, `b` and `w` the first-layer
  bias and second-layer weights as rows and `s` the scalar bias, entry `(0, p, q)` is
      (Σ_h max(L[0, p, h] + R[0, q, h] + b[0, h], 0) · w[0, h]  +  s[0, 0]) · [row < column],
  where row `= (g 1)·128 + p` and column `= (g 2)·128 + q` are the global positions of the tile's entry. Both are below
  512, so their comparison as signed 32-bit words is their comparison as naturals, and the one-bit answer widened to 32
  bits and converted to a float is 1 or 0.
-/
import proofs.«159363_j61323543052293_1_alg».proof.Proof.Gen.KernelIdeal.Skeleton
import proofs.«159363_j61323543052293_1_alg».proof.Proof.LibTileDot
import proofs.«159363_j61323543052293_1_alg».proof.Proof.LibUnitAxis
import proofs.«159363_j61323543052293_1_alg».proof.Proof.LibMidUnit
import Idealize.ShloMosaic.Lib.ValueIdx
import Idealize.ShloMosaic.Lib.Pipeline.Value
import Idealize.ShloMosaic.PureOps.Ideal.Laws

noncomputable section

namespace Cert.KernelSide

open Cert.KernelIdeal Cert.KernelIdeal.Gen Idealize.ShloMosaic Idealize.ShloMosaic.ValueIdx

variable [Cert.KernelIdeal.Facts]

/-! ## Region 0: the projection tile -/

/-- The left operand's index on its free axis (axis 1) is the output's row. -/
theorem proj_lhs_1 (j : S512x256.Idx) (q : dot_S64x512_S64x256_S512x256_0_0_1_1_n_n.contr.Idx) :
    (dot_S64x512_S64x256_S512x256_0_0_1_1_n_n.lhsIdx j q 1).val = (j 0).val := by
  unfold DotDims.lhsIdx
  rw [dif_neg (show ¬(1 : Fin S64x512.rank) ∈ dot_S64x512_S64x256_S512x256_0_0_1_1_n_n.lhsBatch by decide),
    dif_pos (show (1 : Fin S64x512.rank) ∈ dot_S64x512_S64x256_S512x256_0_0_1_1_n_n.lhsNonContracting by decide)]
  rfl

/-- The right operand's index on its free axis (axis 1) is the output's column. -/
theorem proj_rhs_1 (j : S512x256.Idx) (q : dot_S64x512_S64x256_S512x256_0_0_1_1_n_n.contr.Idx) :
    (dot_S64x512_S64x256_S512x256_0_0_1_1_n_n.rhsIdx j q 1).val = (j 1).val := by
  unfold DotDims.rhsIdx
  rw [dif_neg (show ¬(1 : Fin S64x256.rank) ∈ dot_S64x512_S64x256_S512x256_0_0_1_1_n_n.rhsBatch by decide),
    dif_pos (show (1 : Fin S64x256.rank) ∈ dot_S64x512_S64x256_S512x256_0_0_1_1_n_n.rhsNonContracting by decide)]
  rfl

/-- region 0: one batch entry's projection tile. The block of `x` loses its unit axis, is contracted over its channel
    axis (axis 0 of both operands, 64 channels) against the weights into the zero accumulator, and the unit axis is put
    back: entry `(0, n, k)` is the sum over the channels `c` of `x[0, c, n] · w[c, k]`. -/
theorem proj_payload_at (v0 : Vec Ideal S1x64x512 .f32) (v2 : Vec Ideal S64x256 .f32) (n : Fin 512) (k : Fin 256) :
    k0_pay1 (F := Ideal) v0 v2 (ix3 (0 : Fin 1) n k) = ∑ c : Fin 64, v0 (ix3 (0 : Fin 1) c n) * v2 (ix2 c k) := by
  unfold k0_pay1
  refine (Cert.LibUnitAxis.addUnit_ix _ _ (0 : Fin 1) n k).trans ?_
  refine (Cert.LibTileDot.matmul_zero_at dot_S64x512_S64x256_S512x256_0_0_1_1_n_n none 64 rfl rfl _ _ (ix2 n k)
    (fun c => ix2 c n) (fun c => ix2 c k) ?_ ?_).trans ?_
  · intro c
    have hc := contrEquiv1_symm_val dot_S64x512_S64x256_S512x256_0_0_1_1_n_n 64 rfl rfl c
    funext a
    refine Fin.ext ?_
    match a with
    | ⟨0, _⟩ =>
      exact (dot_S64x512_S64x256_S512x256_0_0_1_1_n_n.lhsIdx_val_of_single (cl := (0 : Fin 2)) rfl _ _).trans hc
    | ⟨1, _⟩ => exact proj_lhs_1 _ _
  · intro c
    have hc := contrEquiv1_symm_val dot_S64x512_S64x256_S512x256_0_0_1_1_n_n 64 rfl rfl c
    funext a
    refine Fin.ext ?_
    match a with
    | ⟨0, _⟩ =>
      exact (dot_S64x512_S64x256_S512x256_0_0_1_1_n_n.rhsIdx_val_of_single (cr := (0 : Fin 2)) rfl _ _).trans hc
    | ⟨1, _⟩ => exact proj_rhs_1 _ _
  · refine Finset.sum_congr rfl fun c _ => ?_
    rw [Cert.LibUnitAxis.dropUnit_ix v0 _ c n]
    refine congrArg (v0 (ix3 (0 : Fin 1) c n) * ·) ?_
    exact shapeCast_apply v2 _ _ _ rfl

/-! ## Region 1's layout steps, each read at an index -/

section Layout
variable {α : Type}

/-- The left tile `[128,128]` viewed as `[128,1,128]` and repeated along the middle axis: entry `(p, q, h)` is entry `(p, h)`. -/
theorem bcast_left_at (x : S128x128.Idx → α) (hc : S128x128.ShapeCasts S128x1x128) (hb : S128x1x128.Broadcasts S128x128x128)
    (p q h : Fin 128) :
    broadcastTo S128x128x128 (shapeCast S128x1x128 x hc) hb (ix3 p q h) = x (ix2 p h) := by
  refine (broadcastTo_apply _ hb (ix3 p q h) (ix3 p (0 : Fin 1) h) (fun a => ?_)).trans
    (Cert.LibMidUnit.addMid_ix x hc p (0 : Fin 1) h)
  match a with
  | ⟨0, _⟩ => show p.val = if (128 : Nat) = 1 then 0 else p.val; rw [if_neg (by decide)]
  | ⟨1, _⟩ => show 0 = if (1 : Nat) = 1 then 0 else q.val; rw [if_pos rfl]
  | ⟨2, _⟩ => show h.val = if (128 : Nat) = 1 then 0 else h.val; rw [if_neg (by decide)]

/-- The right tile `[128,128]` viewed as `[1,128,128]` and repeated along the leading axis: entry `(p, q, h)` is entry `(q, h)`. -/
theorem bcast_right_at (x : S128x128.Idx → α) (hc : S128x128.ShapeCasts S1x128x128) (hb : S1x128x128.Broadcasts S128x128x128)
    (p q h : Fin 128) :
    broadcastTo S128x128x128 (shapeCast S1x128x128 x hc) hb (ix3 p q h) = x (ix2 q h) := by
  refine (broadcastTo_apply _ hb (ix3 p q h) (ix3 (0 : Fin 1) q h) (fun a => ?_)).trans
    (Cert.LibUnitAxis.addUnit_ix x hc (0 : Fin 1) q h)
  match a with
  | ⟨0, _⟩ => show 0 = if (1 : Nat) = 1 then 0 else p.val; rw [if_pos rfl]
  | ⟨1, _⟩ => show q.val = if (128 : Nat) = 1 then 0 else q.val; rw [if_neg (by decide)]
  | ⟨2, _⟩ => show h.val = if (128 : Nat) = 1 then 0 else h.val; rw [if_neg (by decide)]

/-- A row vector `[1,128]` flattened to `[128]`, viewed as `[1,1,128]` and repeated along both leading axes: entry
    `(p, q, h)` is entry `(0, h)`. -/
theorem bcast_row_at (b : S1x128.Idx → α) (h0 : S1x128.ShapeCasts S128) (hc : S128.ShapeCasts S1x1x128)
    (hb : S1x1x128.Broadcasts S128x128x128) (p q h : Fin 128) :
    broadcastTo S128x128x128 (shapeCast S1x1x128 (shapeCast S128 b h0) hc) hb (ix3 p q h) = b (ix2 (0 : Fin 1) h) := by
  refine (broadcastTo_apply _ hb (ix3 p q h) (ix3 (0 : Fin 1) (0 : Fin 1) h) (fun a => ?_)).trans ?_
  · match a with
    | ⟨0, _⟩ => show 0 = if (1 : Nat) = 1 then 0 else p.val; rw [if_pos rfl]
    | ⟨1, _⟩ => show 0 = if (1 : Nat) = 1 then 0 else q.val; rw [if_pos rfl]
    | ⟨2, _⟩ => show h.val = if (128 : Nat) = 1 then 0 else h.val; rw [if_neg (by decide)]
  · refine (shapeCast_apply _ hc (ix3 (0 : Fin 1) (0 : Fin 1) h) (ix1 h) ?_).trans
      (shapeCast_apply b h0 (ix1 h) (ix2 (0 : Fin 1) h) ?_)
    · rw [Shape.rowMajor_val_three, Shape.rowMajor_val_one]
      show h.val = (0 * 1 + 0) * 128 + h.val
      omega
    · rw [Shape.rowMajor_val_two, Shape.rowMajor_val_one]
      show 0 * 128 + h.val = h.val
      omega

end Layout

/-- The sum over the last axis of a `[128,128,128]` array, read at `(p, q)`: the sum over `h` of the entries `(p, q, h)`. -/
theorem reduce_last_at (src : FVec Ideal S128x128x128 .f32) (hr : S128x128x128.Reduces [2] S128x128)
    (hφ : FKind.Formats .f32) (hacc : (0x00000000#32 : BitVec 32) = FKind.add.neutral .f32 hφ) (p q : Fin 128) :
    multiReduction .add [2] S128x128 src 0x00000000#32 hr hφ hacc (ix2 p q) = ∑ h : Fin 128, src (ix3 p q h) := by
  refine (Ideal.multiReduction_add_single src 0x00000000#32 hr hφ hacc (ix2 p q)).trans ?_
  refine Finset.sum_congr rfl fun h _ => congrArg src ?_
  funext a
  refine Fin.ext ?_
  match a with
  | ⟨0, _⟩ => rfl
  | ⟨1, _⟩ => rfl
  | ⟨2, _⟩ => rfl

/-! ## Region 1's mask word -/

/-- A word below 2^31 built from a grid coordinate and a tile coordinate: `a·128 + p`. -/
theorem word_toInt (a : Nat) (ha : a < 4) (p : Fin 128) :
    (Scalar.muli (BitVec.ofNat 32 a) 128#32 + BitVec.ofNat 32 (0 * 128 + p.val)).toInt = ((a * 128 + p.val : Nat) : Int) := by
  have hn : (Scalar.muli (BitVec.ofNat 32 a) 128#32 + BitVec.ofNat 32 (0 * 128 + p.val)).toNat = a * 128 + p.val := by
    show (BitVec.ofNat 32 a * 128#32 + BitVec.ofNat 32 (0 * 128 + p.val)).toNat = a * 128 + p.val
    rw [BitVec.toNat_add, BitVec.toNat_mul, BitVec.toNat_ofNat, BitVec.toNat_ofNat, BitVec.toNat_ofNat]
    have := p.isLt
    omega
  rw [BitVec.toInt_eq_toNat_of_lt (by rw [hn]; have := p.isLt; omega), hn]

theorem mask_at (a1 a2 : Nat) (h1 : a1 < 4) (h2 : a2 < 4) (hi0 : S128x128.Iotas .tc 32 [0]) (hi1 : S128x128.Iotas .tc 32 [1])
    (hlt : 1 < 32) (p q : Fin 128) :
    (sitofp .f32 (extui 32 (cmpi .sgt
        (addi (broadcast S128x128 (Scalar.muli (BitVec.ofNat 32 a2) 128#32)) (iota .tc S128x128 32 [1] hi1))
        (addi (broadcast S128x128 (Scalar.muli (BitVec.ofNat 32 a1) 128#32)) (iota .tc S128x128 32 [0] hi0))) hlt)
      : FVec Ideal S128x128 .f32) (ix2 p q)
      = if a1 * 128 + p.val < a2 * 128 + q.val then (1 : EReal) else 0 := by
  show (((BitVec.setWidth 32 (BitVec.ofBool
      ((Scalar.muli (BitVec.ofNat 32 a1) 128#32 + BitVec.ofNat 32 (0 * 128 + p.val)).slt
       (Scalar.muli (BitVec.ofNat 32 a2) 128#32 + BitVec.ofNat 32 (0 * 128 + q.val))))).toInt : ℝ) : EReal) = _
  rw [BitVec.slt_eq_decide, word_toInt a1 h1 p, word_toInt a2 h2 q]
  by_cases h : a1 * 128 + p.val < a2 * 128 + q.val
  · rw [if_pos h, decide_eq_true (by exact_mod_cast h)]
    simp
  · rw [if_neg h, decide_eq_false (by exact_mod_cast h)]
    simp

/-! ## Region 1: one tile of scores -/

/-- region 1: one 128x128 tile of scores at grid point `g = (batch, tile row, tile column)`. The left tile is repeated
    along the middle axis, the right tile along the leading axis and the first-layer bias along both, the three are
    added and the positive part taken; the product with the second-layer weights (repeated the same way) is summed over
    the hidden axis, the scalar bias is added, and the result is multiplied by the indicator that the global column
    `(g 2)·128 + q` exceeds the global row `(g 1)·128 + p`. -/
theorem pair_payload_at (g : grid1.Coords) (v0 v2 : Vec Ideal S1x128x128 .f32) (v4 v6 : Vec Ideal S1x128 .f32) (v8 : Vec Ideal S1x1 .f32) (p q : Fin 128) :
    k1_pay1 (F := Ideal) (k1_pay2 (F := Ideal) g v0 v2 v4 v6 v8) (ix3 (0 : Fin 1) p q)
      = ((∑ h : Fin 128, max (v0 (ix3 (0 : Fin 1) p h) + v2 (ix3 (0 : Fin 1) q h) + v4 (ix2 (0 : Fin 1) h)) 0 * v6 (ix2 (0 : Fin 1) h)) + v8 (ix2 (0 : Fin 1) (0 : Fin 1)))
        * (if (g 1).val * 128 + p.val < (g 2).val * 128 + q.val then (1 : EReal) else 0) := by
  unfold k1_pay1 k1_pay2
  refine (Cert.LibUnitAxis.addUnit_ix _ _ (0 : Fin 1) p q).trans ?_
  refine (mulf_apply _ _ _).trans ?_
  refine congrArg₂ (· * ·) ?_ ?_
  · refine (addf_apply _ _ _).trans ?_
    refine congrArg₂ (· + ·) ?_ ?_
    · refine (reduce_last_at _ _ _ _ p q).trans ?_
      refine Finset.sum_congr rfl fun h _ => ?_
      refine (mulf_apply _ _ _).trans ?_
      refine congrArg₂ (· * ·) ?_ (bcast_row_at v6 _ _ _ p q h)
      refine (maximumf_apply _ _ _).trans ?_
      refine congrArg₂ max ?_ Ideal.ofBits_zero_f32
      refine (addf_apply _ _ _).trans ?_
      refine congrArg₂ (· + ·) ?_ (bcast_row_at v4 _ _ _ p q h)
      refine (addf_apply _ _ _).trans ?_
      refine congrArg₂ (· + ·) ?_ ?_
      · exact (bcast_left_at _ _ _ p q h).trans (Cert.LibUnitAxis.dropUnit_ix v0 _ p h)
      · exact (bcast_right_at _ _ _ p q h).trans (Cert.LibUnitAxis.dropUnit_ix v2 _ q h)
    · refine congrArg v8 ?_
      funext a
      refine Fin.ext ?_
      match a with
      | ⟨0, _⟩ => rfl
      | ⟨1, _⟩ => rfl
  · exact mask_at (g 1).val (g 2).val (g 1).isLt (g 2).isLt _ _ _ p q

end Cert.KernelSide

end
-- ==== Proof.Region0.lean ====
/-
  The first region's output array.

  The region runs over the four batch entries. At entry `t` its body loads the whole 64 × 512 slab `x[t]` and the
  whole 64 × 256 weight matrix, contracts the 64 channels (the slab transposed times the matrix, into a zero
  accumulator) and stores the 512 × 256 product as block `t` of the output. So the output array is ONE function of
  the two arrays the region finds: entry `(b, n, k)` is Σ_{c < 64} x[b, c, n] · w[c, k]. The four blocks tile the
  array, so after the last point the array holds that function everywhere.
-/
import proofs.«159363_j61323543052293_1_alg».proof.Proof.FrameKernelIdeal
import proofs.«159363_j61323543052293_1_alg».proof.Proof.Payloads
import Idealize.ShloMosaic.Lib.Pipeline.Value
import Idealize.ShloMosaic.Lib.ValueIdx

set_option maxRecDepth 16384

noncomputable section

namespace Cert.KernelSide
open Cert.KernelIdeal Cert.KernelIdeal.Gen Cert.KernelIdeal.GenP
open Idealize.ShloMosaic Idealize.ShloMosaic.ValueIdx Idealize.ShloMosaic.TcCoe Idealize.SL.Sem
open Idealize.ShloMosaic.Pipeline (Dat)

/-- The projection of every column of every batch entry: entry `(b, n, k)` contracts the 64 channels of column `n`
    of `x[b]` with column `k` of the 64 × 256 weight matrix. -/
def projArr (x : S4x64x512.Idx → EReal) (wb : S64x256.Idx → EReal) : S4x512x256.Idx → EReal :=
  fun o => ∑ c : Fin 64, x (ix3 (o 0) c (o 1)) * wb (ix2 c (o 2))

theorem projArr_ix3 (x : S4x64x512.Idx → EReal) (wb : S64x256.Idx → EReal) (b : Fin 4) (n : Fin 512) (k : Fin 256) :
    projArr x wb (ix3 b n k) = ∑ c : Fin 64, x (ix3 b c n) * wb (ix2 c k) := rfl

theorem zeros3 : (![0, 0, 0] : Fin 3 → Nat) = fun _ => 0 := funext fun a => by fin_cases a <;> rfl
theorem zeros2 : (![0, 0] : Fin 2 → Nat) = fun _ => 0 := funext fun a => by fin_cases a <;> rfl

/-- One grid point's tile is the projection restricted to one batch entry: if the point's `x` block is batch entry
    `b` of `X` and its weight block is all of `WB`, the body's value at `(0, n, k)` is the projection at `(b, n, k)`. -/
theorem proj_point (x0 : Vec Ideal S1x64x512 .f32) (x1 : Vec Ideal S64x256 .f32)
    (X : S4x64x512.Idx → EReal) (WB : S64x256.Idx → EReal) (b : Fin 4)
    (h0 : ∀ (c : Fin 64) (n : Fin 512), x0 (ix3 (0 : Fin 1) c n) = X (ix3 b c n))
    (h1 : ∀ (c : Fin 64) (k : Fin 256), x1 (ix2 c k) = WB (ix2 c k))
    (j : S1x512x256.Idx) (o : S4x512x256.Idx) (ho0 : (o 0).val = b.val) (ho1 : (o 1).val = (j 1).val)
    (ho2 : (o 2).val = (j 2).val) :
    k0_pay1 (F := Ideal) x0 x1 j = projArr X WB o := by
  obtain ⟨u, n, k, rfl⟩ : ∃ (u : Fin 1) (n : Fin 512) (k : Fin 256), j = ix3 u n k := ⟨j 0, j 1, j 2, eq_ix3 j⟩
  obtain ⟨b', n', k', rfl⟩ : ∃ (b' : Fin 4) (n' : Fin 512) (k' : Fin 256), o = ix3 b' n' k' := ⟨o 0, o 1, o 2, eq_ix3 o⟩
  obtain rfl : b' = b := Fin.ext ho0
  obtain rfl : n' = n := Fin.ext ho1
  obtain rfl : k' = k := Fin.ext ho2
  obtain rfl : u = 0 := Subsingleton.elim _ _
  rw [proj_payload_at, projArr_ix3]
  exact Finset.sum_congr rfl fun c _ => by rw [h0, h1]

variable (V : (c : Dev nD) → (b : Ref sig .tc) → Buf (Elt Ideal) ((c : Thread nD τ).loc b))

/-- The index maps of the first region over its four points: the `x` window and the output window sit at batch entry
    `t`, the weight window at the origin. -/
theorem idx_facts0 : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- What point `t` writes back is block `t` of the projection of the arrays the region finds. -/
theorem flushed0_eq (c : Dev nD) (t : Fin cfg0.N) :
    (dat0 V c).flushed 2 t = ((cfg0.win 2).blk t).view.read (Elt Ideal) (projArr (V c main_arg0) (V c main_v2)) := by
  show (cfg0.win 2).cut (grid0.coords t) ((dat0 V c).after 2 t) = _
  rw [after0_2]
  unfold out0_2
  rw [View.canon_unit_zero zeros3]
  simp only [View.ld_unit_zero (S := S1x64x512) zeros3, View.ld_unit_zero (S := S64x256) zeros2]
  obtain ⟨e00, e01, e02, e10, e11, e20, e21, e22⟩ := idx_facts0 t
  funext j
  show k0_pay1 (F := Ideal) (iblk0 V c 0 t) (iblk0 V c 1 t) j = projArr (V c main_arg0) (V c main_v2) (((cfg0.win 2).blk t).view.emb j)
  refine proj_point (iblk0 V c 0 t) (iblk0 V c 1 t) (V c main_arg0) (V c main_v2) ⟨t.val, t.isLt⟩ ?_ ?_ j _ ?_ ?_ ?_
  · intro cc n
    show V c main_arg0 (((cfg0.win 0).blk t).view.emb (ix3 (0 : Fin 1) cc n)) = V c main_arg0 (ix3 (⟨t.val, t.isLt⟩ : Fin 4) cc n)
    refine congrArg (V c main_arg0) (funext fun a => Fin.ext ?_)
    match a with
    | ⟨0, _⟩ => show win0_0.index t (0 : Fin 3) * 1 + 1 * 0 = t.val; omega
    | ⟨1, _⟩ => show win0_0.index t (1 : Fin 3) * 64 + 1 * cc.val = cc.val; omega
    | ⟨2, _⟩ => show win0_0.index t (2 : Fin 3) * 512 + 1 * n.val = n.val; omega
  · intro cc k
    show V c main_v2 (((cfg0.win 1).blk t).view.emb (ix2 cc k)) = V c main_v2 (ix2 cc k)
    refine congrArg (V c main_v2) (funext fun a => Fin.ext ?_)
    match a with
    | ⟨0, _⟩ => show win0_1.index t (0 : Fin 2) * 64 + 1 * cc.val = cc.val; omega
    | ⟨1, _⟩ => show win0_1.index t (1 : Fin 2) * 256 + 1 * k.val = k.val; omega
  · show win0_2.index t (0 : Fin 3) * 1 + 1 * (j 0).val = t.val
    have : (j 0).val < 1 := (j 0).isLt
    omega
  · show win0_2.index t (1 : Fin 3) * 512 + 1 * (j 1).val = (j 1).val; omega
  · show win0_2.index t (2 : Fin 3) * 256 + 1 * (j 2).val = (j 2).val; omega

/-- An index of the projection array is in point `t`'s block iff each coordinate is in the block's range on its axis. -/
theorem mem_blk0 (t : Fin cfg0.N) (i : S4x512x256.Idx) :
    i ∈ ((cfg0.win 2).blk t).view.set ↔ ∀ a : Fin 3, win0_2.index t a * S1x512x256.size a ≤ (i a).val ∧ (i a).val < win0_2.index t a * S1x512x256.size a + S1x512x256.size a := by
  show i ∈ ((View.whole main_v3).slice (win0_2.rect t)).set ↔ _
  rw [View.set_slice_whole, Rect.mem_set_unit]
  exact Iff.rfl

/-- Every index of the projection array is in the block of the point of its batch entry. -/
theorem cover0 (i : S4x512x256.Idx) : ∃ t : Fin cfg0.N, (cfg0.win 2).flush t = true ∧ i ∈ ((cfg0.win 2).blk t).view.set := by
  have h0 : (i 0).val < 4 := (i 0).isLt
  have h1 : (i 1).val < 512 := (i 1).isLt
  have h2 : (i 2).val < 256 := (i 2).isLt
  refine ⟨⟨(i 0).val, h0⟩, flush0_2 _, ?_⟩
  rw [mem_blk0]
  obtain ⟨-, -, -, -, -, e0', e1, e2⟩ := idx_facts0 ⟨(i 0).val, h0⟩
  have e0 : win0_2.index ⟨(i 0).val, h0⟩ (0 : Fin 3) = (i 0).val := e0'
  intro a
  match a with
  | ⟨0, _⟩ => show win0_2.index ⟨(i 0).val, h0⟩ (0 : Fin 3) * 1 ≤ (i 0).val ∧ (i 0).val < win0_2.index ⟨(i 0).val, h0⟩ (0 : Fin 3) * 1 + 1; rw [e0]; omega
  | ⟨1, _⟩ => show win0_2.index ⟨(i 0).val, h0⟩ (1 : Fin 3) * 512 ≤ (i 1).val ∧ (i 1).val < win0_2.index ⟨(i 0).val, h0⟩ (1 : Fin 3) * 512 + 512; rw [e1]; omega
  | ⟨2, _⟩ => show win0_2.index ⟨(i 0).val, h0⟩ (2 : Fin 3) * 256 ≤ (i 2).val ∧ (i 2).val < win0_2.index ⟨(i 0).val, h0⟩ (2 : Fin 3) * 256 + 256; rw [e2]; omega

/-- The first region leaves the projection of the arrays it finds in its output array. -/
theorem region0_final (c : Dev nD) :
    (dat0 V c).arrAt 2 cfg0.N = projArr (V c main_arg0) (V c main_v2) :=
  (dat0 V c).arrAt_eq_of_cover 2 _ (fun t _ => flushed0_eq V c t) cover0

end Cert.KernelSide

end
-- ==== Proof.Spec.lean ====
/-
  The pairwise score of a two-layer perceptron on concatenated columns, as ONE function of the five argument arrays.

  For a batch entry `b` and two positions `i`, `j` of the 512, the first layer applied to the concatenation of
  column `i` and column `j` of `x[b]` (each a vector of 64 channels) is, for every hidden unit `h` of the 128,
      Σ_{c < 64} x[b, c, i] · W1[c, h]  +  Σ_{c < 64} x[b, c, j] · W1[64 + c, h]  +  b1[h]
  — the first 64 rows of `W1` meet the left column, the last 64 the right one. The score is the second layer on the
  positive part of that vector,  Σ_h max(·, 0) · W2[h, 0] + b2[0],  and the result keeps it strictly above the
  diagonal (`i < j`) and is zero elsewhere: the score times the indicator of `i < j`.

  Everything is read on the extended reals; sums are the additive monoid's, so no term needs to be finite.
-/
import Idealize.ShloMosaic.Lib.ValueIdx
import Idealize.ShloMosaic.PureOps.Ideal

noncomputable section

namespace Cert.Spec

open Idealize.ShloMosaic Idealize.ShloMosaic.ValueIdx

/-- Row `c` of the upper half of the first layer's weights (the rows that meet the left column). -/
def lo (c : Fin 64) : Fin 128 := ⟨c.val, by have := c.isLt; omega⟩

/-- Row `64 + c`, of the lower half (the rows that meet the right column). -/
def hi (c : Fin 64) : Fin 128 := ⟨64 + c.val, by have := c.isLt; omega⟩

/-- Column `n` of `x[b]` against the upper half of `W1`, at hidden unit `h`. -/
def projL (x : (⟨3, ![4, 64, 512]⟩ : Shape).Idx → EReal) (w1 : (⟨2, ![128, 128]⟩ : Shape).Idx → EReal)
    (b : Fin 4) (n : Fin 512) (h : Fin 128) : EReal :=
  ∑ c : Fin 64, x (ix3 b c n) * w1 (ix2 (lo c) h)

/-- Column `n` of `x[b]` against the lower half of `W1`, at hidden unit `h`. -/
def projR (x : (⟨3, ![4, 64, 512]⟩ : Shape).Idx → EReal) (w1 : (⟨2, ![128, 128]⟩ : Shape).Idx → EReal)
    (b : Fin 4) (n : Fin 512) (h : Fin 128) : EReal :=
  ∑ c : Fin 64, x (ix3 b c n) * w1 (ix2 (hi c) h)

/-- The indicator of the strict upper triangle. -/
def mask (i j : Fin 512) : EReal := if i.val < j.val then 1 else 0

/-- The second layer on the positive part of the first layer's output for the pair `(i, j)`. -/
def score (x : (⟨3, ![4, 64, 512]⟩ : Shape).Idx → EReal) (w1 : (⟨2, ![128, 128]⟩ : Shape).Idx → EReal)
    (b1 : (⟨1, ![128]⟩ : Shape).Idx → EReal) (w2 : (⟨2, ![128, 1]⟩ : Shape).Idx → EReal)
    (b2 : (⟨1, ![1]⟩ : Shape).Idx → EReal) (b : Fin 4) (i j : Fin 512) : EReal :=
  (∑ h : Fin 128, max (projL x w1 b i h + projR x w1 b j h + b1 (ix1 h)) 0 * w2 (ix2 h (0 : Fin 1)))
    + b2 (ix1 (0 : Fin 1))

/-- The whole result: the score above the diagonal, zero on and below it. -/
def G (x : (⟨3, ![4, 64, 512]⟩ : Shape).Idx → EReal) (w1 : (⟨2, ![128, 128]⟩ : Shape).Idx → EReal)
    (b1 : (⟨1, ![128]⟩ : Shape).Idx → EReal) (w2 : (⟨2, ![128, 1]⟩ : Shape).Idx → EReal)
    (b2 : (⟨1, ![1]⟩ : Shape).Idx → EReal) : (⟨3, ![4, 512, 512]⟩ : Shape).Idx → EReal :=
  fun o => score x w1 b1 w2 b2 (o 0) (o 1) (o 2) * mask (o 1) (o 2)

/-- The result at an index written by its coordinates. -/
theorem G_ix3 (x : (⟨3, ![4, 64, 512]⟩ : Shape).Idx → EReal) (w1 : (⟨2, ![128, 128]⟩ : Shape).Idx → EReal)
    (b1 : (⟨1, ![128]⟩ : Shape).Idx → EReal) (w2 : (⟨2, ![128, 1]⟩ : Shape).Idx → EReal)
    (b2 : (⟨1, ![1]⟩ : Shape).Idx → EReal) (b : Fin 4) (i j : Fin 512) :
    G x w1 b1 w2 b2 (ix3 b i j) = score x w1 b1 w2 b2 b i j * mask i j := rfl

end Cert.Spec

end
-- ==== Proof.Region1.lean ====
/-
  The second region's output array.

  The region runs over (batch entry, tile row, tile column), 4 × 4 × 4 points. At a point its body loads a 128 × 128
  tile of the left projections (rows of tile row `r`), a 128 × 128 tile of the right projections (rows of tile
  column `s`), the two one-row matrices and the one-by-one bias, and stores the 128 × 128 tile of scores
      (Σ_h max(left[p, h] + right[q, h] + b1[h], 0) · w2[h] + b2) · [128 r + p < 128 s + q]
  as block (batch, r, s) of the output. If the arrays the region finds are the specification's left and right
  first-layer terms and the reshaped parameters, that tile is block (batch, r, s) of the specification's result; the
  64 blocks tile the 4 × 512 × 512 array, so after the last point the array holds the specification everywhere.
-/
import proofs.«159363_j61323543052293_1_alg».proof.Proof.FrameKernelIdeal
import proofs.«159363_j61323543052293_1_alg».proof.Proof.Payloads
import proofs.«159363_j61323543052293_1_alg».proof.Proof.Region0
import proofs.«159363_j61323543052293_1_alg».proof.Proof.Spec
import Idealize.ShloMosaic.Lib.Pipeline.Value
import Idealize.ShloMosaic.Lib.ValueIdx

set_option maxRecDepth 16384

noncomputable section

namespace Cert.KernelSide
open Cert.KernelIdeal Cert.KernelIdeal.Gen Cert.KernelIdeal.GenP
open Idealize.ShloMosaic Idealize.ShloMosaic.ValueIdx Idealize.ShloMosaic.TcCoe Idealize.SL.Sem
open Idealize.ShloMosaic.Pipeline (Dat)

/-- One grid point's tile is a block of the specification: if the point's left tile holds the left first-layer terms
    of rows `128 r + p`, its right tile the right terms of rows `128 s + q` (`r`, `s` the point's tile row and
    tile column), and the three small blocks the reshaped parameters, then the body's value at `(0, p, q)` is the
    specification at `(b, 128 r + p, 128 s + q)`. -/
theorem pair_point (g : grid1.Coords) (x0 x1 : Vec Ideal S1x128x128 .f32) (x2 x3 : Vec Ideal S1x128 .f32)
    (x4 : Vec Ideal S1x1 .f32)
    (X : S4x64x512.Idx → EReal) (w1 : S128x128.Idx → EReal) (b1 : S128.Idx → EReal) (w2 : S128x1.Idx → EReal)
    (b2 : S1.Idx → EReal) (b : Fin 4)
    (h0 : ∀ (p : Fin 128) (i : Fin 512) (h : Fin 128), i.val = (g 1).val * 128 + p.val →
      x0 (ix3 (0 : Fin 1) p h) = Cert.Spec.projL X w1 b i h)
    (h1 : ∀ (q : Fin 128) (j : Fin 512) (h : Fin 128), j.val = (g 2).val * 128 + q.val →
      x1 (ix3 (0 : Fin 1) q h) = Cert.Spec.projR X w1 b j h)
    (h2 : ∀ h : Fin 128, x2 (ix2 (0 : Fin 1) h) = b1 (ix1 h))
    (h3 : ∀ h : Fin 128, x3 (ix2 (0 : Fin 1) h) = w2 (ix2 h (0 : Fin 1)))
    (h4 : x4 (ix2 (0 : Fin 1) (0 : Fin 1)) = b2 (ix1 (0 : Fin 1)))
    (y : S1x128x128.Idx) (o : S4x512x512.Idx) (ho0 : (o 0).val = b.val)
    (ho1 : (o 1).val = (g 1).val * 128 + (y 1).val) (ho2 : (o 2).val = (g 2).val * 128 + (y 2).val) :
    k1_pay1 (F := Ideal) (k1_pay2 (F := Ideal) g x0 x1 x2 x3 x4) y = Cert.Spec.G X w1 b1 w2 b2 o := by
  obtain ⟨u, p, q, rfl⟩ : ∃ (u : Fin 1) (p q : Fin 128), y = ix3 u p q := ⟨y 0, y 1, y 2, eq_ix3 y⟩
  obtain ⟨b', i, j, rfl⟩ : ∃ (b' : Fin 4) (i j : Fin 512), o = ix3 b' i j := ⟨o 0, o 1, o 2, eq_ix3 o⟩
  obtain rfl : b' = b := Fin.ext ho0
  obtain rfl : u = 0 := Subsingleton.elim _ _
  have hi : i.val = (g 1).val * 128 + p.val := ho1
  have hj : j.val = (g 2).val * 128 + q.val := ho2
  rw [pair_payload_at, Cert.Spec.G_ix3, ← hi, ← hj, h4]
  unfold Cert.Spec.score Cert.Spec.mask
  refine congrArg (· * _) (congrArg (· + _) (Finset.sum_congr rfl fun h _ => ?_))
  rw [h0 p i h hi, h1 q j h hj, h2, h3]

variable (V : (c : Dev nD) → (b : Ref sig .tc) → Buf (Elt Ideal) ((c : Thread nD τ).loc b))

/-- The index maps of the second region over its 64 points: the left window sits at (batch, tile row), the right
    window at (batch, tile column), the three parameter windows at the origin, the output at (batch, tile row, tile
    column). -/
theorem idx_facts1 : ∀ t : Fin cfg1.N,
    win1_0.index t (0 : Fin 3) = (grid1.coords t 0).val ∧ win1_0.index t (1 : Fin 3) = (grid1.coords t 1).val
    ∧ win1_0.index t (2 : Fin 3) = 0
    ∧ win1_1.index t (0 : Fin 3) = (grid1.coords t 0).val ∧ win1_1.index t (1 : Fin 3) = (grid1.coords t 2).val
    ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 3) = (grid1.coords t 0).val ∧ win1_5.index t (1 : Fin 3) = (grid1.coords t 1).val
    ∧ win1_5.index t (2 : Fin 3) = (grid1.coords t 2).val :=
  (by decide +kernel : ∀ t : Fin grid1.N, _)

/-- Every (batch, tile row, tile column) is some point's output block. -/
theorem idx_onto1 : ∀ (q0 q1 q2 : Fin 4), ∃ t : Fin cfg1.N, win1_5.index t = ![q0.val, q1.val, q2.val] :=
  (by decide +kernel : ∀ (q0 q1 q2 : Fin 4), ∃ t : Fin grid1.N, win1_5.index t = ![q0.val, q1.val, q2.val])

/-- What point `t` writes back is block `t` of the specification, when the region finds the specification's
    first-layer terms and the reshaped parameters in its five input arrays. -/
theorem flushed1_eq (c : Dev nD) (X : S4x64x512.Idx → EReal) (w1 : S128x128.Idx → EReal) (b1 : S128.Idx → EReal)
    (w2 : S128x1.Idx → EReal) (b2 : S1.Idx → EReal)
    (hL : ∀ (b : Fin 4) (n : Fin 512) (h : Fin 128), V c main_v4 (ix3 b n h) = Cert.Spec.projL X w1 b n h)
    (hR : ∀ (b : Fin 4) (n : Fin 512) (h : Fin 128), V c main_v5 (ix3 b n h) = Cert.Spec.projR X w1 b n h)
    (hB1 : ∀ h : Fin 128, V c main_v6 (ix2 (0 : Fin 1) h) = b1 (ix1 h))
    (hW2 : ∀ h : Fin 128, V c main_v8 (ix2 (0 : Fin 1) h) = w2 (ix2 h (0 : Fin 1)))
    (hB2 : V c main_v9 (ix2 (0 : Fin 1) (0 : Fin 1)) = b2 (ix1 (0 : Fin 1)))
    (t : Fin cfg1.N) :
    (dat1 V c).flushed 5 t = ((cfg1.win 5).blk t).view.read (Elt Ideal) (Cert.Spec.G X w1 b1 w2 b2) := by
  show (cfg1.win 5).cut (grid1.coords t) ((dat1 V c).after 5 t) = _
  rw [after1_5]
  unfold out1_5
  rw [View.canon_unit_zero zeros3]
  simp only [View.ld_unit_zero (S := S1x128x128) zeros3, View.ld_unit_zero (S := S1x128) zeros2,
    View.ld_unit_zero (S := S1x1) zeros2]
  obtain ⟨e00, e01, e02, e10, e11, e12, e20, e21, e30, e31, e40, e41, e50, e51, e52⟩ := idx_facts1 t
  have hb : (grid1.coords t 0).val < 4 := (grid1.coords t 0).isLt
  funext y
  show k1_pay1 (F := Ideal) (k1_pay2 (F := Ideal) (grid1.coords t) (iblk1 V c 0 t) (iblk1 V c 1 t) (iblk1 V c 2 t)
      (iblk1 V c 3 t) (iblk1 V c 4 t)) y = Cert.Spec.G X w1 b1 w2 b2 (((cfg1.win 5).blk t).view.emb y)
  refine pair_point (grid1.coords t) (iblk1 V c 0 t) (iblk1 V c 1 t) (iblk1 V c 2 t) (iblk1 V c 3 t) (iblk1 V c 4 t)
    X w1 b1 w2 b2 ⟨(grid1.coords t 0).val, hb⟩ ?_ ?_ ?_ ?_ ?_ y _ ?_ ?_ ?_
  · intro p i h hi
    show V c main_v4 (((cfg1.win 0).blk t).view.emb (ix3 (0 : Fin 1) p h)) = _
    rw [← hL]
    refine congrArg (V c main_v4) (funext fun a => Fin.ext ?_)
    match a with
    | ⟨0, _⟩ => show win1_0.index t (0 : Fin 3) * 1 + 1 * 0 = (grid1.coords t 0).val; omega
    | ⟨1, _⟩ => show win1_0.index t (1 : Fin 3) * 128 + 1 * p.val = i.val; omega
    | ⟨2, _⟩ => show win1_0.index t (2 : Fin 3) * 128 + 1 * h.val = h.val; omega
  · intro q j h hj
    show V c main_v5 (((cfg1.win 1).blk t).view.emb (ix3 (0 : Fin 1) q h)) = _
    rw [← hR]
    refine congrArg (V c main_v5) (funext fun a => Fin.ext ?_)
    match a with
    | ⟨0, _⟩ => show win1_1.index t (0 : Fin 3) * 1 + 1 * 0 = (grid1.coords t 0).val; omega
    | ⟨1, _⟩ => show win1_1.index t (1 : Fin 3) * 128 + 1 * q.val = j.val; omega
    | ⟨2, _⟩ => show win1_1.index t (2 : Fin 3) * 128 + 1 * h.val = h.val; omega
  · intro h
    show V c main_v6 (((cfg1.win 2).blk t).view.emb (ix2 (0 : Fin 1) h)) = _
    rw [← hB1]
    refine congrArg (V c main_v6) (funext fun a => Fin.ext ?_)
    match a with
    | ⟨0, _⟩ => show win1_2.index t (0 : Fin 2) * 1 + 1 * 0 = 0; omega
    | ⟨1, _⟩ => show win1_2.index t (1 : Fin 2) * 128 + 1 * h.val = h.val; omega
  · intro h
    show V c main_v8 (((cfg1.win 3).blk t).view.emb (ix2 (0 : Fin 1) h)) = _
    rw [← hW2]
    refine congrArg (V c main_v8) (funext fun a => Fin.ext ?_)
    match a with
    | ⟨0, _⟩ => show win1_3.index t (0 : Fin 2) * 1 + 1 * 0 = 0; omega
    | ⟨1, _⟩ => show win1_3.index t (1 : Fin 2) * 128 + 1 * h.val = h.val; omega
  · show V c main_v9 (((cfg1.win 4).blk t).view.emb (ix2 (0 : Fin 1) (0 : Fin 1))) = _
    rw [← hB2]
    refine congrArg (V c main_v9) (funext fun a => Fin.ext ?_)
    match a with
    | ⟨0, _⟩ => show win1_4.index t (0 : Fin 2) * 1 + 1 * 0 = 0; omega
    | ⟨1, _⟩ => show win1_4.index t (1 : Fin 2) * 1 + 1 * 0 = 0; omega
  · show win1_5.index t (0 : Fin 3) * 1 + 1 * (y 0).val = (grid1.coords t 0).val
    have : (y 0).val < 1 := (y 0).isLt
    omega
  · show win1_5.index t (1 : Fin 3) * 128 + 1 * (y 1).val = (grid1.coords t 1).val * 128 + (y 1).val; omega
  · show win1_5.index t (2 : Fin 3) * 128 + 1 * (y 2).val = (grid1.coords t 2).val * 128 + (y 2).val; omega

/-- An index of the result is in point `t`'s block iff each coordinate is in the block's range on its axis. -/
theorem mem_blk1 (t : Fin cfg1.N) (i : S4x512x512.Idx) :
    i ∈ ((cfg1.win 5).blk t).view.set ↔ ∀ a : Fin 3, win1_5.index t a * S1x128x128.size a ≤ (i a).val ∧ (i a).val < win1_5.index t a * S1x128x128.size a + S1x128x128.size a := by
  show i ∈ ((View.whole main_v10).slice (win1_5.rect t)).set ↔ _
  rw [View.set_slice_whole, Rect.mem_set_unit]
  exact Iff.rfl

/-- Every index of the result is in the block of the point of its batch entry, tile row and tile column. -/
theorem cover1 (i : S4x512x512.Idx) : ∃ t : Fin cfg1.N, (cfg1.win 5).flush t = true ∧ i ∈ ((cfg1.win 5).blk t).view.set := by
  have h0 : (i 0).val < 4 := (i 0).isLt
  have h1 : (i 1).val < 512 := (i 1).isLt
  have h2 : (i 2).val < 512 := (i 2).isLt
  obtain ⟨t, ht⟩ := idx_onto1 ⟨(i 0).val, h0⟩ ⟨(i 1).val / 128, by omega⟩ ⟨(i 2).val / 128, by omega⟩
  have q0 : win1_5.index t (0 : Fin 3) = (i 0).val := congrFun ht 0
  have q1 : win1_5.index t (1 : Fin 3) = (i 1).val / 128 := congrFun ht 1
  have q2 : win1_5.index t (2 : Fin 3) = (i 2).val / 128 := congrFun ht 2
  refine ⟨t, flush1_5 t, ?_⟩
  rw [mem_blk1]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 128 ≤ (i 1).val ∧ (i 1).val < win1_5.index t (1 : Fin 3) * 128 + 128; omega
  | ⟨2, _⟩ => show win1_5.index t (2 : Fin 3) * 128 ≤ (i 2).val ∧ (i 2).val < win1_5.index t (2 : Fin 3) * 128 + 128; omega

/-- The second region leaves the specification in its output array, when it finds the specification's first-layer
    terms and the reshaped parameters in its input arrays. -/
theorem region1_final (c : Dev nD) (X : S4x64x512.Idx → EReal) (w1 : S128x128.Idx → EReal) (b1 : S128.Idx → EReal)
    (w2 : S128x1.Idx → EReal) (b2 : S1.Idx → EReal)
    (hL : ∀ (b : Fin 4) (n : Fin 512) (h : Fin 128), V c main_v4 (ix3 b n h) = Cert.Spec.projL X w1 b n h)
    (hR : ∀ (b : Fin 4) (n : Fin 512) (h : Fin 128), V c main_v5 (ix3 b n h) = Cert.Spec.projR X w1 b n h)
    (hB1 : ∀ h : Fin 128, V c main_v6 (ix2 (0 : Fin 1) h) = b1 (ix1 h))
    (hW2 : ∀ h : Fin 128, V c main_v8 (ix2 (0 : Fin 1) h) = w2 (ix2 h (0 : Fin 1)))
    (hB2 : V c main_v9 (ix2 (0 : Fin 1) (0 : Fin 1)) = b2 (ix1 (0 : Fin 1))) :
    (dat1 V c).arrAt 5 cfg1.N = Cert.Spec.G X w1 b1 w2 b2 :=
  (dat1 V c).arrAt_eq_of_cover 5 _ (fun t _ => flushed1_eq V c X w1 b1 w2 b2 hL hR hB1 hW2 hB2 t) cover1

end Cert.KernelSide

end
-- ==== Proof.LibHostIdx.lean ====
/-
  Layout operations of the host programs read at an index, over literal ranks: a vector broadcast into a one-column
  matrix, a vector cast to a one-column or one-row matrix and back.  Each moves no data: the element at (e, 0) or (0, k)
  of the matrix is the vector's element e or k.
-/
import Idealize.ShloMosaic.Lib.ValueIdx
import Idealize.ShloMosaic.Lib.Pipeline.Value

noncomputable section

namespace Cert.Lib.HostIdx

open Idealize.ShloMosaic Idealize.ShloMosaic.ValueIdx

variable {α : Type}

/-- A vector broadcast along axis 0 into a one-column matrix: entry (e, 0) is the vector's entry e. -/
theorem bcastCol_apply {E : Nat} (h : (⟨1, ![E]⟩ : Shape).BroadcastsInDim ⟨2, ![E, 1]⟩ ![0])
    (v : (⟨1, ![E]⟩ : Shape).Idx → α) (e : Fin E) :
    broadcastInDim ⟨2, ![E, 1]⟩ ![0] h v (ix2 e (0 : Fin 1)) = v (ix1 e) :=
  broadcastInDim_apply _ h v (ix2 e (0 : Fin 1)) (ix1 e) (fun a => match a with
    | ⟨0, _⟩ => by
      show e.val = if E = 1 then 0 else e.val
      split
      · have := e.isLt; omega
      · rfl)

/-- A vector cast to a one-column matrix: entry (n, 0) is the vector's entry n. -/
theorem castCol_apply {N : Nat} (h : (⟨1, ![N]⟩ : Shape).ShapeCasts ⟨2, ![N, 1]⟩)
    (v : (⟨1, ![N]⟩ : Shape).Idx → α) (n : Fin N) :
    shapeCast ⟨2, ![N, 1]⟩ v h (ix2 n (0 : Fin 1)) = v (ix1 n) :=
  shapeCast_apply v h (ix2 n (0 : Fin 1)) (ix1 n) (by
    rw [Shape.rowMajor_val_one, Shape.rowMajor_val_two]
    show n.val = n.val * 1 + 0
    omega)

/-- A one-column matrix cast to a vector: entry n is the matrix's entry (n, 0). -/
theorem castFlat_apply {N : Nat} (h : (⟨2, ![N, 1]⟩ : Shape).ShapeCasts ⟨1, ![N]⟩)
    (v : (⟨2, ![N, 1]⟩ : Shape).Idx → α) (n : Fin N) :
    shapeCast ⟨1, ![N]⟩ v h (ix1 n) = v (ix2 n (0 : Fin 1)) :=
  shapeCast_apply v h (ix1 n) (ix2 n (0 : Fin 1)) (by
    rw [Shape.rowMajor_val_one, Shape.rowMajor_val_two]
    show n.val * 1 + 0 = n.val
    omega)

/-- A vector cast to a one-row matrix: entry (0, k) is the vector's entry k. -/
theorem castRow_apply {D : Nat} (h : (⟨1, ![D]⟩ : Shape).ShapeCasts ⟨2, ![1, D]⟩)
    (v : (⟨1, ![D]⟩ : Shape).Idx → α) (k : Fin D) :
    shapeCast ⟨2, ![1, D]⟩ v h (ix2 (0 : Fin 1) k) = v (ix1 k) :=
  shapeCast_apply v h (ix2 (0 : Fin 1) k) (ix1 k) (by
    rw [Shape.rowMajor_val_one, Shape.rowMajor_val_two]
    show k.val = 0 * D + k.val
    omega)

/-- A one-column matrix cast to a one-row matrix: entry (0, q) is the column's entry (q, 0). -/
theorem castColRow_apply {D : Nat} (h : (⟨2, ![D, 1]⟩ : Shape).ShapeCasts ⟨2, ![1, D]⟩)
    (v : (⟨2, ![D, 1]⟩ : Shape).Idx → α) (q : Fin D) :
    shapeCast ⟨2, ![1, D]⟩ v h (ix2 (0 : Fin 1) q) = v (ix2 q (0 : Fin 1)) :=
  shapeCast_apply v h (ix2 (0 : Fin 1) q) (ix2 q (0 : Fin 1)) (by
    rw [Shape.rowMajor_val_two, Shape.rowMajor_val_two]
    show q.val * 1 + 0 = 0 * D + q.val
    omega)

end Cert.Lib.HostIdx

end
-- ==== Proof.HostGlue.lean ====
/-
  The host operations around the two regions, read at an index.

  Before the first region the program cuts `W1` into its upper and lower 64 rows and sets them side by side as a
  64 × 256 matrix; between the regions it cuts the first region's 4 × 512 × 256 output into its first and last 128
  columns and views the two biases and the second layer's weights as one-row matrices. Read at an index, the first
  128 columns of the projection are the left column's first-layer term (the upper rows of `W1`), the last 128 the
  right column's (the lower rows), and the reshapes move no data.
-/
import proofs.«159363_j61323543052293_1_alg».proof.Proof.Region0
import proofs.«159363_j61323543052293_1_alg».proof.Proof.Spec
import proofs.«159363_j61323543052293_1_alg».proof.Proof.LibHostIdx
import Idealize.ShloMosaic.Lib.Pipeline.Value
import Idealize.ShloMosaic.Lib.ValueIdx

noncomputable section

namespace Cert.KernelSide
open Cert.KernelIdeal Cert.KernelIdeal.Gen
open Idealize.ShloMosaic Idealize.ShloMosaic.ValueIdx

/-- The 64 × 256 weight matrix the first region multiplies by: the upper half of `W1` (rows 0–63) in columns 0–127,
    the lower half (rows 64–127) in columns 128–255. -/
def wboth (w1 : S128x128.Idx → EReal) : S64x256.Idx → EReal :=
  concatenate S64x256 1 [⟨S64x128, extractStridedSlice S64x128 ![0, 0] w1 slices_S128x128_S64x128_0_0⟩,
    ⟨S64x128, extractStridedSlice S64x128 ![64, 0] w1 slices_S128x128_S64x128_64_0⟩] concatenates_S64x128_S64x128_S64x256_d1

/-- A column among the first 128 is a column of the upper half. -/
theorem wboth_lo (w1 : S128x128.Idx → EReal) (c : Fin 64) (h : Fin 128) :
    wboth w1 (ix2 c (⟨h.val, by have := h.isLt; omega⟩ : Fin 256)) = w1 (ix2 (Cert.Spec.lo c) h) := by
  unfold wboth
  refine (concatenate_pair_apply_left (t := S64x256) (1 : Fin 2) _ _ concatenates_S64x128_S64x128_S64x256_d1
    (ix2 c (⟨h.val, by have := h.isLt; omega⟩ : Fin 256)) rfl (ix2 c h)
    (fun b => match b with | ⟨0, _⟩ => rfl | ⟨1, _⟩ => rfl)).trans ?_
  exact extractStridedSlice_apply _ w1 _ (ix2 c h) (ix2 (Cert.Spec.lo c) h)
    (fun a => match a with
      | ⟨0, _⟩ => by show c.val = 0 + c.val; omega
      | ⟨1, _⟩ => by show h.val = 0 + h.val; omega)

/-- A column among the last 128 is a column of the lower half. -/
theorem wboth_hi (w1 : S128x128.Idx → EReal) (c : Fin 64) (h : Fin 128) :
    wboth w1 (ix2 c (⟨128 + h.val, by have := h.isLt; omega⟩ : Fin 256)) = w1 (ix2 (Cert.Spec.hi c) h) := by
  unfold wboth
  refine (concatenate_pair_apply_right (t := S64x256) (1 : Fin 2) _ _ concatenates_S64x128_S64x128_S64x256_d1
    (ix2 c (⟨128 + h.val, by have := h.isLt; omega⟩ : Fin 256)) rfl rfl (ix2 c h)
    (fun b hb => match b, hb with | ⟨0, _⟩, _ => rfl | ⟨1, _⟩, hb => absurd rfl hb)
    (by show h.val + 128 = 128 + h.val; omega)).trans ?_
  exact extractStridedSlice_apply _ w1 _ (ix2 c h) (ix2 (Cert.Spec.hi c) h)
    (fun a => match a with
      | ⟨0, _⟩ => by show 64 + c.val = 64 + c.val; rfl
      | ⟨1, _⟩ => by show h.val = 0 + h.val; omega)

/-- The left half of the projection array (its first 128 columns) is the left column's first-layer term. -/
theorem left_eq (X : S4x64x512.Idx → EReal) (w1 : S128x128.Idx → EReal) (b : Fin 4) (n : Fin 512) (h : Fin 128) :
    extractStridedSlice S4x512x128 ![0, 0, 0] (projArr X (wboth w1)) slices_S4x512x256_S4x512x128_0_0_0 (ix3 b n h)
      = Cert.Spec.projL X w1 b n h := by
  rw [extractStridedSlice_apply _ _ _ (ix3 b n h) (ix3 b n (⟨h.val, by have := h.isLt; omega⟩ : Fin 256))
    (fun a => match a with
      | ⟨0, _⟩ => by show b.val = 0 + b.val; omega
      | ⟨1, _⟩ => by show n.val = 0 + n.val; omega
      | ⟨2, _⟩ => by show h.val = 0 + h.val; omega)]
  rw [projArr_ix3]
  unfold Cert.Spec.projL
  exact Finset.sum_congr rfl fun c _ => by rw [wboth_lo]

/-- The right half (its last 128 columns) is the right column's first-layer term. -/
theorem right_eq (X : S4x64x512.Idx → EReal) (w1 : S128x128.Idx → EReal) (b : Fin 4) (n : Fin 512) (h : Fin 128) :
    extractStridedSlice S4x512x128 ![0, 0, 128] (projArr X (wboth w1)) slices_S4x512x256_S4x512x128_0_0_128 (ix3 b n h)
      = Cert.Spec.projR X w1 b n h := by
  rw [extractStridedSlice_apply _ _ _ (ix3 b n h) (ix3 b n (⟨128 + h.val, by have := h.isLt; omega⟩ : Fin 256))
    (fun a => match a with
      | ⟨0, _⟩ => by show b.val = 0 + b.val; omega
      | ⟨1, _⟩ => by show n.val = 0 + n.val; omega
      | ⟨2, _⟩ => by show 128 + h.val = 128 + h.val; rfl)]
  rw [projArr_ix3]
  unfold Cert.Spec.projR
  exact Finset.sum_congr rfl fun c _ => by rw [wboth_hi]

/-- The first layer's bias as a one-row matrix. -/
theorem bias_row (b1 : S128.Idx → EReal) (h : Fin 128) :
    shapeCast S1x128 b1 shapeCasts_S128_S1x128 (ix2 (0 : Fin 1) h) = b1 (ix1 h) :=
  Cert.Lib.HostIdx.castRow_apply _ b1 h

/-- The second layer's one-column weight matrix as a one-row matrix. -/
theorem weight_row (w2 : S128x1.Idx → EReal) (h : Fin 128) :
    shapeCast S1x128 (shapeCast S128 w2 shapeCasts_S128x1_S128) shapeCasts_S128_S1x128 (ix2 (0 : Fin 1) h)
      = w2 (ix2 h (0 : Fin 1)) := by
  rw [Cert.Lib.HostIdx.castRow_apply, Cert.Lib.HostIdx.castFlat_apply]

/-- The second layer's bias as a one-by-one matrix. -/
theorem bias_cell (b2 : S1.Idx → EReal) :
    shapeCast S1x1 b2 shapeCasts_S1_S1x1 (ix2 (0 : Fin 1) (0 : Fin 1)) = b2 (ix1 (0 : Fin 1)) :=
  Cert.Lib.HostIdx.castRow_apply _ b2 (0 : Fin 1)

end Cert.KernelSide

end
-- ==== Proof.KernelValue.lean ====
/-
  The idealized kernel's result is the specification.

  The run ends with the result's buffer at the last boundary's contents (the run with its result named). Walking the
  boundaries back to the launch memory:
    • the last boundary holds, at the result, what the second region's write-backs leave;
    • the second region finds, in its five input arrays, the second stretch of host operations applied to the
      first region's exit contents: the two column halves of the first region's output and the reshaped parameters;
    • the first region's exit contents hold, at its output, what its write-backs leave — the projection of the arrays
      it finds — and the launch contents at every argument it does not write;
    • the first region finds `x` as launched and the two halves of `W1` side by side.
  The two column halves of the projection are the specification's left and right first-layer terms, so the second
  region leaves the specification of the launch contents of the five arguments.
-/
import proofs.«159363_j61323543052293_1_alg».proof.Proof.KernelRun
import proofs.«159363_j61323543052293_1_alg».proof.Proof.Region0
import proofs.«159363_j61323543052293_1_alg».proof.Proof.Region1
import proofs.«159363_j61323543052293_1_alg».proof.Proof.HostGlue
import Idealize.ShloMosaic.Lib.StableHlo.Run

set_option maxRecDepth 16384

noncomputable section

namespace Cert.KernelSide
open Cert.KernelIdeal Cert.KernelIdeal.Gen Cert.KernelIdeal.GenP
open Idealize.ShloMosaic Idealize.ShloMosaic.ValueIdx Idealize.ShloMosaic.TcCoe Idealize.SL.Sem Idealize.ShloMosaic.StableHlo

variable (m : (ℓ : Loc nD τ sig) → Buf (Elt Ideal) ℓ) (ρ : Dev nD → PrngReg)

/-! ## What the first region finds -/

/-- The first stretch of host operations writes no argument: the region finds `x` as launched. -/
theorem entry0_arg0 (c : Dev nD) : V1 m ρ c main_arg0 = m ((c : Thread nD τ).loc main_arg0) := by
  show StableHlo.after hostOps0 (W0 m ρ c) (Proc.devRef .tc main_arg0) = _
  after_results

/-- It finds the two halves of `W1` side by side in its weight array. -/
theorem entry0_v2 (c : Dev nD) : V1 m ρ c main_v2 = wboth (m ((c : Thread nD τ).loc main_arg1)) := by
  show StableHlo.after hostOps0 (W0 m ρ c) (Proc.devRef .tc main_v2) = _
  after_results
  rfl

/-! ## The first region's exit contents -/

/-- Its output array holds the projection of the launch contents. -/
theorem mid_proj (c : Dev nD) : W2 m ρ c (Proc.devRef .tc main_v3)
    = projArr (m ((c : Thread nD τ).loc main_arg0)) (wboth (m ((c : Thread nD τ).loc main_arg1))) := by
  refine (W2_arr m ρ c 2).trans ?_
  rw [region0_final, entry0_arg0, entry0_v2]

/-- The three parameter arguments are as launched: neither the first stretch nor the first region writes them. -/
theorem mid_arg2 (c : Dev nD) : W2 m ρ c (Proc.devRef .tc main_arg2) = m ((c : Thread nD τ).loc main_arg2) := by
  refine (W2_of_ne m ρ c main_arg2 (by decide)).trans ?_
  show StableHlo.after hostOps0 (W0 m ρ c) (Proc.devRef .tc main_arg2) = _
  after_results

theorem mid_arg3 (c : Dev nD) : W2 m ρ c (Proc.devRef .tc main_arg3) = m ((c : Thread nD τ).loc main_arg3) := by
  refine (W2_of_ne m ρ c main_arg3 (by decide)).trans ?_
  show StableHlo.after hostOps0 (W0 m ρ c) (Proc.devRef .tc main_arg3) = _
  after_results

theorem mid_arg4 (c : Dev nD) : W2 m ρ c (Proc.devRef .tc main_arg4) = m ((c : Thread nD τ).loc main_arg4) := by
  refine (W2_of_ne m ρ c main_arg4 (by decide)).trans ?_
  show StableHlo.after hostOps0 (W0 m ρ c) (Proc.devRef .tc main_arg4) = _
  after_results

/-! ## What the second region finds -/

theorem entry1_v4 (c : Dev nD) : V3 m ρ c main_v4
    = extractStridedSlice S4x512x128 ![0, 0, 0] (W2 m ρ c (Proc.devRef .tc main_v3)) slices_S4x512x256_S4x512x128_0_0_0 := by
  show StableHlo.after hostOps1 (W2 m ρ c) (Proc.devRef .tc main_v4) = _
  after_results

theorem entry1_v5 (c : Dev nD) : V3 m ρ c main_v5
    = extractStridedSlice S4x512x128 ![0, 0, 128] (W2 m ρ c (Proc.devRef .tc main_v3)) slices_S4x512x256_S4x512x128_0_0_128 := by
  show StableHlo.after hostOps1 (W2 m ρ c) (Proc.devRef .tc main_v5) = _
  after_results

theorem entry1_v6 (c : Dev nD) : V3 m ρ c main_v6
    = shapeCast S1x128 (W2 m ρ c (Proc.devRef .tc main_arg2)) shapeCasts_S128_S1x128 := by
  show StableHlo.after hostOps1 (W2 m ρ c) (Proc.devRef .tc main_v6) = _
  after_results
  rfl

theorem entry1_v8 (c : Dev nD) : V3 m ρ c main_v8
    = shapeCast S1x128 (shapeCast S128 (W2 m ρ c (Proc.devRef .tc main_arg3)) shapeCasts_S128x1_S128) shapeCasts_S128_S1x128 := by
  show StableHlo.after hostOps1 (W2 m ρ c) (Proc.devRef .tc main_v8) = _
  after_results
  rfl

theorem entry1_v9 (c : Dev nD) : V3 m ρ c main_v9
    = shapeCast S1x1 (W2 m ρ c (Proc.devRef .tc main_arg4)) shapeCasts_S1_S1x1 := by
  show StableHlo.after hostOps1 (W2 m ρ c) (Proc.devRef .tc main_v9) = _
  after_results
  rfl

/-! ## The result -/

/-- The last boundary's contents at the result: the specification of the five arguments as launched. -/
theorem kernel_result (c : Dev nD) : W4 m ρ c (Proc.devRef .tc main_v10)
    = Cert.Spec.G (m ((c : Thread nD τ).loc main_arg0)) (m ((c : Thread nD τ).loc main_arg1))
        (m ((c : Thread nD τ).loc main_arg2)) (m ((c : Thread nD τ).loc main_arg3)) (m ((c : Thread nD τ).loc main_arg4)) := by
  refine (W4_arr m ρ c 5).trans ?_
  refine region1_final (V3 m ρ) c _ _ _ _ _ ?_ ?_ ?_ ?_ ?_
  · intro b n h
    rw [entry1_v4, mid_proj]
    exact left_eq _ _ b n h
  · intro b n h
    rw [entry1_v5, mid_proj]
    exact right_eq _ _ b n h
  · intro h
    rw [entry1_v6, mid_arg2]
    exact bias_row _ h
  · intro h
    rw [entry1_v8, mid_arg3]
    exact weight_row _ h
  · rw [entry1_v9, mid_arg4]
    exact bias_cell _

/-- Every weakly fair execution of the idealized kernel terminates without a fault, its result the specification of
    the arguments as launched, the arguments unchanged. -/
theorem kernel_run : θ_run defs (onTc (τ := τ) (main (F := Ideal))) ⟨m, fun _ => 0, ρ⟩ (fun r => ∀ c : Dev nD,
      r.2.mem ((c.tc : Thread nD τ).loc main_v10)
        = Cert.Spec.G (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (kernel_result m ρ c), (h c).2⟩) (run_named m ρ)

end Cert.KernelSide

end
-- ==== Proof.LibContract.lean ====
/-
  Contractions on the extended reals that need no finiteness.

  Addition on [-∞, +∞] is commutative and associative (with +∞ + -∞ = -∞ it is still an additive
  commutative monoid) and 0 · x = 0 for every extended real x, +∞ and -∞ included.  So re-indexing,
  splitting and re-associating finite sums, and contracting against a one-hot vector, hold for
  arbitrary extended reals.  (Distributivity does not: see the laws on real extended reals.)
  This file has: the contraction against a one-hot vector (the indicator written with 0 and 1 of the
  extended reals, as the coercion of an integer 0/1 or of a machine integer 0/1, or given abstractly by
  its two defining facts);
  the split of a sum over Fin (a + b), in particular Fin 128, into its low and high parts; and
  the re-association facts for sums of sums.
-/
import Idealize.ShloMosaic.PureOps.Ideal

namespace Idealize.ShloMosaic.LibERealLaws

open scoped BigOperators

/-! ### One-hot contraction -/

/-- Contraction against an abstract one-hot vector: if c r0 = 1 and c r = 0 for every r ≠ r0 then
    Σ_r c r · t r = t r0, for arbitrary extended reals t r (0 · x = 0 also at x = ±∞). -/
theorem sum_onehot_mul_of {ι : Type*} [Fintype ι] (c t : ι → EReal) (r0 : ι)
    (h1 : c r0 = 1) (h0 : ∀ r, r ≠ r0 → c r = 0) : ∑ r, c r * t r = t r0 := by
  classical
  rw [Finset.sum_eq_single r0 (fun r _ hr => by rw [h0 r hr, zero_mul])
    (fun h => absurd (Finset.mem_univ r0) h), h1, one_mul]

/-- The same with the one-hot vector as the right factor: Σ_r t r · c r = t r0. -/
theorem sum_mul_onehot_of {ι : Type*} [Fintype ι] (c t : ι → EReal) (r0 : ι)
    (h1 : c r0 = 1) (h0 : ∀ r, r ≠ r0 → c r = 0) : ∑ r, t r * c r = t r0 := by
  rw [← sum_onehot_mul_of c t r0 h1 h0]
  exact Finset.sum_congr rfl fun r _ => mul_comm _ _

/-- One-hot contraction: Σ_r [r = r0] · t r = t r0, the indicator being 1 or 0 of the extended
    reals; t is arbitrary. -/
theorem sum_onehot_mul {ι : Type*} [Fintype ι] [DecidableEq ι] (t : ι → EReal) (r0 : ι) :
    ∑ r, (if r = r0 then (1 : EReal) else 0) * t r = t r0 :=
  sum_onehot_mul_of (fun r => if r = r0 then (1 : EReal) else 0) t r0 (if_pos rfl) fun _ hr => if_neg hr

/-- One-hot contraction with the equation of the indicator turned round: Σ_r [r0 = r] · t r = t r0. -/
theorem sum_onehot_mul' {ι : Type*} [Fintype ι] [DecidableEq ι] (t : ι → EReal) (r0 : ι) :
    ∑ r, (if r0 = r then (1 : EReal) else 0) * t r = t r0 :=
  sum_onehot_mul_of (fun r => if r0 = r then (1 : EReal) else 0) t r0 (if_pos rfl)
    fun _ hr => if_neg (Ne.symm hr)

/-- One-hot contraction with the indicator on the right: Σ_r t r · [r = r0] = t r0. -/
theorem sum_mul_onehot {ι : Type*} [Fintype ι] [DecidableEq ι] (t : ι → EReal) (r0 : ι) :
    ∑ r, t r * (if r = r0 then (1 : EReal) else 0) = t r0 :=
  sum_mul_onehot_of (fun r => if r = r0 then (1 : EReal) else 0) t r0 (if_pos rfl) fun _ hr => if_neg hr

/-- One-hot contraction with the indicator an integer 0/1 read as a real and then as an extended
    real (what a conversion of an integer to a float gives): Σ_r ↑↑[r = r0] · t r = t r0. -/
theorem sum_onehot_int_mul {ι : Type*} [Fintype ι] [DecidableEq ι] (t : ι → EReal) (r0 : ι) :
    ∑ r, ((((if r = r0 then (1 : ℤ) else 0 : ℤ) : ℝ)) : EReal) * t r = t r0 :=
  sum_onehot_mul_of (fun r => ((((if r = r0 then (1 : ℤ) else 0 : ℤ) : ℝ)) : EReal)) t r0
    (by simp) fun r hr => by simp [hr]

/-- One-hot contraction with the indicator a vector of w-bit integers (w ≥ 2) whose entry is 1 at r0
    and 0 elsewhere, each entry read as a signed integer, then as a real, then as an extended real
    (a signed integer-to-float conversion): Σ_r ↑↑(toInt (b r)) · t r = t r0. -/
theorem sum_onehot_bitvec_mul {ι : Type*} [Fintype ι] {w : ℕ} (hw : 1 < w) (b : ι → BitVec w)
    (t : ι → EReal) (r0 : ι) (h1 : b r0 = 1#w) (h0 : ∀ r, r ≠ r0 → b r = 0#w) :
    ∑ r, ((((b r).toInt : ℝ)) : EReal) * t r = t r0 :=
  sum_onehot_mul_of (fun r => ((((b r).toInt : ℝ)) : EReal)) t r0
    (by simp only [h1, BitVec.toInt_one hw, Int.cast_one, EReal.coe_one])
    (fun r hr => by simp only [h0 r hr, BitVec.toInt_zero, Int.cast_zero, EReal.coe_zero])

/-- The same with the indicator on the right: Σ_r t r · ↑↑(toInt (b r)) = t r0. -/
theorem sum_mul_onehot_bitvec {ι : Type*} [Fintype ι] {w : ℕ} (hw : 1 < w) (b : ι → BitVec w)
    (t : ι → EReal) (r0 : ι) (h1 : b r0 = 1#w) (h0 : ∀ r, r ≠ r0 → b r = 0#w) :
    ∑ r, t r * ((((b r).toInt : ℝ)) : EReal) = t r0 := by
  rw [← sum_onehot_bitvec_mul hw b t r0 h1 h0]
  exact Finset.sum_congr rfl fun r _ => mul_comm _ _

/-- One-hot contraction over the finite index type Fin n: Σ_{r < n} [r = r0] · t r = t r0. -/
theorem sum_fin_onehot_mul {n : ℕ} (t : Fin n → EReal) (r0 : Fin n) :
    ∑ r : Fin n, (if r = r0 then (1 : EReal) else 0) * t r = t r0 :=
  sum_onehot_mul t r0

/-! ### Splitting a contraction -/

/-- A sum over Fin (a + b) is the sum over its first a indices plus the sum over its last b:
    Σ_{k < N} f k = Σ_{k < a} f k + Σ_{k < b} f (a + k) when a + b = N. -/
theorem sum_fin_split {N : ℕ} (a b : ℕ) (h : a + b = N) (f : Fin N → EReal) :
    ∑ k : Fin N, f k
      = ∑ k : Fin a, f ⟨k.val, by have := k.isLt; omega⟩
        + ∑ k : Fin b, f ⟨a + k.val, by have := k.isLt; omega⟩ := by
  subst h
  exact Fin.sum_univ_add f

/-- A contraction over 128 indices is the contraction over the low 64 plus the one over the high 64:
    Σ_{k < 128} f k = Σ_{k < 64} f k + Σ_{k < 64} f (64 + k). -/
theorem sum_fin128_split (f : Fin 128 → EReal) :
    ∑ k : Fin 128, f k
      = ∑ k : Fin 64, f ⟨k.val, by have := k.isLt; omega⟩
        + ∑ k : Fin 64, f ⟨64 + k.val, by have := k.isLt; omega⟩ :=
  sum_fin_split 64 64 rfl f

/-- The same split with the two halves named by the embeddings of Fin 64 into Fin (64 + 64):
    Σ_k f k = Σ_k f (castAdd k) + Σ_k f (natAdd k). -/
theorem sum_fin128_split_castAdd_natAdd (f : Fin (64 + 64) → EReal) :
    ∑ k : Fin (64 + 64), f k
      = ∑ k : Fin 64, f (Fin.castAdd 64 k) + ∑ k : Fin 64, f (Fin.natAdd 64 k) :=
  Fin.sum_univ_add f

/-- A contraction of products splits likewise: with g, h : Fin 128 → [-∞, +∞],
    Σ_{k < 128} g k · h k = Σ_{k < 64} g k · h k + Σ_{k < 64} g (64 + k) · h (64 + k). -/
theorem sum_mul_fin128_split (g h : Fin 128 → EReal) :
    ∑ k : Fin 128, g k * h k
      = ∑ k : Fin 64, g ⟨k.val, by have := k.isLt; omega⟩ * h ⟨k.val, by have := k.isLt; omega⟩
        + ∑ k : Fin 64, g ⟨64 + k.val, by have := k.isLt; omega⟩ * h ⟨64 + k.val, by have := k.isLt; omega⟩ :=
  sum_fin128_split fun k => g k * h k

/-! ### Re-association -/

/-- Addition of extended reals is associative, at the infinities too: (a + b) + c = a + (b + c). -/
theorem ereal_add_assoc (a b c : EReal) : a + b + c = a + (b + c) := add_assoc a b c

/-- Addition of extended reals is commutative: a + b = b + a. -/
theorem ereal_add_comm (a b : EReal) : a + b = b + a := add_comm a b

/-- Four summands regroup: (a + b) + (c + d) = (a + c) + (b + d). -/
theorem ereal_add_add_add_comm (a b c d : EReal) : a + b + (c + d) = a + c + (b + d) :=
  add_add_add_comm a b c d

/-- The sum of two finite sums over the same index set is the sum of the termwise sums:
    Σ_i f i + Σ_i g i = Σ_i (f i + g i), for arbitrary extended reals. -/
theorem sum_add_sum {ι : Type*} (s : Finset ι) (f g : ι → EReal) :
    ∑ i ∈ s, f i + ∑ i ∈ s, g i = ∑ i ∈ s, (f i + g i) :=
  Finset.sum_add_distrib.symm

/-- Two finite sums commute: Σ_i Σ_j f i j = Σ_j Σ_i f i j, for arbitrary extended reals. -/
theorem sum_sum_comm {ι κ : Type*} (s : Finset ι) (t : Finset κ) (f : ι → κ → EReal) :
    ∑ i ∈ s, ∑ j ∈ t, f i j = ∑ j ∈ t, ∑ i ∈ s, f i j :=
  Finset.sum_comm

/-- A finite sum is unchanged by re-indexing along a bijection σ: Σ_i f (σ i) = Σ_j f j. -/
theorem sum_reindex {ι κ : Type*} [Fintype ι] [Fintype κ] (σ : ι ≃ κ) (f : κ → EReal) :
    ∑ i, f (σ i) = ∑ j, f j :=
  Equiv.sum_comp σ f

end Idealize.ShloMosaic.LibERealLaws
-- ==== Proof.RefIsSpec.lean ====
/-
  The reference program's result is the specification.

  The reference transposes x to [4,512,64], copies it along a new axis in two ways (the left copy holds column i of
  x[b] at position (i, j), the right copy holds column j), joins the two copies along the channel axis into 128
  channels, contracts with W1 over those 128 channels, adds b1, takes the positive part, contracts with W2 over the
  128 hidden units, adds b2, drops the unit axis, and multiplies by the indicator of the strict upper triangle.

  Read index by index, the one law joining this to the specification is the split of the contraction over the 128
  joined channels into the contraction over the first 64 (the left column against rows c of W1) plus the one over
  the last 64 (the right column against rows 64 + c of W1); it holds for arbitrary extended reals.
-/
import proofs.«159363_j61323543052293_1_alg».proof.Proof.Gen.ReferenceIdeal.Read
import proofs.«159363_j61323543052293_1_alg».proof.Proof.Spec
import proofs.«159363_j61323543052293_1_alg».proof.Proof.LibContract
import Idealize.ShloMosaic.Lib.ValueIdx
import Idealize.ShloMosaic.Lib.IdealHost
import Idealize.ShloMosaic.Lib.Pipeline.Value
import Idealize.ShloMosaic.PureOps.Ideal.Laws

noncomputable section

namespace Cert.RefSide

open Cert.ReferenceIdeal Idealize.ShloMosaic Idealize.ShloMosaic.ValueIdx Cert.Spec

/-! ### The two copies of the transposed array, at an index -/

/-- The transposed array at (b, n, c) is x at (b, c, n). -/
theorem v0_at (x : FVec Ideal S4x64x512 .f32) (b : Fin 4) (n : Fin 512) (c : Fin 64) :
    Read.val_main_v0 (F := Ideal) x (ix3 b n c) = x (ix3 b c n) :=
  (Read.val_main_v0_apply (F := Ideal) x (ix3 b n c)).trans (congrArg x (funext fun a => by
    match a with
    | ⟨0, _⟩ => rfl
    | ⟨1, _⟩ => rfl
    | ⟨2, _⟩ => rfl))

/-- The left copy at (b, i, j, c) is column i of x[b] at channel c. -/
theorem v2_at (x : FVec Ideal S4x64x512 .f32) (b : Fin 4) (i j : Fin 512) (c : Fin 64) :
    Read.val_main_v2 (F := Ideal) x (ix4 b i j c) = x (ix3 b c i) := by
  rw [Read.val_main_v2_apply, Read.val_main_v1_apply]
  refine Eq.trans (congrArg (Read.val_main_v0 (F := Ideal) x) (funext fun a => ?_)) (v0_at x b i c)
  match a with
  | ⟨0, _⟩ => rfl
  | ⟨1, _⟩ => rfl
  | ⟨2, _⟩ => rfl

/-- The right copy at (b, i, j, c) is column j of x[b] at channel c. -/
theorem v4_at (x : FVec Ideal S4x64x512 .f32) (b : Fin 4) (i j : Fin 512) (c : Fin 64) :
    Read.val_main_v4 (F := Ideal) x (ix4 b i j c) = x (ix3 b c j) := by
  rw [Read.val_main_v4_apply, Read.val_main_v3_apply]
  refine Eq.trans (congrArg (Read.val_main_v0 (F := Ideal) x) (funext fun a => ?_)) (v0_at x b j c)
  match a with
  | ⟨0, _⟩ => rfl
  | ⟨1, _⟩ => rfl
  | ⟨2, _⟩ => rfl

/-! ### The joined array, at an index -/

/-- The joined array at a channel below 64 is the left copy at that channel: column i of x[b]. -/
theorem v5_lo (x : FVec Ideal S4x64x512 .f32) (b : Fin 4) (i j : Fin 512) (c : Fin 64) :
    Read.val_main_v5 (F := Ideal) x (ix4 b i j (lo c)) = x (ix3 b c i) := by
  unfold Read.val_main_v5
  refine Eq.trans (concatenate_pair_apply_left (t := S4x512x512x128) (s₁ := S4x512x512x64) (s₂ := S4x512x512x64)
    (3 : Fin S4x512x512x128.rank) _ _ _ (ix4 b i j (lo c)) rfl (ix4 b i j c) (fun a => ?_)) (v2_at x b i j c)
  match a with
  | ⟨0, _⟩ => rfl
  | ⟨1, _⟩ => rfl
  | ⟨2, _⟩ => rfl
  | ⟨3, _⟩ => rfl

/-- The joined array at channel 64 + c is the right copy at channel c: column j of x[b]. -/
theorem v5_hi (x : FVec Ideal S4x64x512 .f32) (b : Fin 4) (i j : Fin 512) (c : Fin 64) :
    Read.val_main_v5 (F := Ideal) x (ix4 b i j (hi c)) = x (ix3 b c j) := by
  unfold Read.val_main_v5
  refine Eq.trans (concatenate_pair_apply_right (t := S4x512x512x128) (s₁ := S4x512x512x64) (s₂ := S4x512x512x64)
    (3 : Fin S4x512x512x128.rank) _ _ _ (ix4 b i j (hi c)) rfl rfl (ix4 b i j c) (fun a ha => ?_) ?_) (v4_at x b i j c)
  · match a with
    | ⟨0, _⟩ => rfl
    | ⟨1, _⟩ => rfl
    | ⟨2, _⟩ => rfl
    | ⟨3, _⟩ => exact absurd rfl ha
  · show c.val + 64 = 64 + c.val
    omega

/-! ### The first layer -/

/-- The contraction with W1 over the 128 joined channels, at (b, i, j, h): the left column against the upper half of
    W1 plus the right column against the lower half. -/
theorem v6_at (x : FVec Ideal S4x64x512 .f32) (w1 : FVec Ideal S128x128 .f32) (b : Fin 4) (i j : Fin 512)
    (h : Fin 128) :
    Read.val_main_v6 (F := Ideal) x w1 (ix4 b i j h) = projL x w1 b i h + projR x w1 b j h := by
  rw [Read.val_main_v6_apply]
  have e : ∀ k : Fin 128,
      Read.val_main_v5 (F := Ideal) x (Read.lidx_main_v6 (ix4 b i j h) k) * w1 (Read.ridx_main_v6 (ix4 b i j h) k)
        = Read.val_main_v5 (F := Ideal) x (ix4 b i j k) * w1 (ix2 k h) := fun k => by
    have el : Read.lidx_main_v6 (ix4 b i j h) k = ix4 b i j k := funext fun a => by
      match a with
      | ⟨0, _⟩ => rfl
      | ⟨1, _⟩ => rfl
      | ⟨2, _⟩ => rfl
      | ⟨3, _⟩ => rfl
    have er : Read.ridx_main_v6 (ix4 b i j h) k = ix2 k h := funext fun a => by
      match a with
      | ⟨0, _⟩ => rfl
      | ⟨1, _⟩ => rfl
    rw [el, er]
  rw [Finset.sum_congr rfl fun k _ => e k]
  rw [Idealize.ShloMosaic.LibERealLaws.sum_mul_fin128_split
    (fun k => Read.val_main_v5 (F := Ideal) x (ix4 b i j k)) (fun k => w1 (ix2 k h))]
  unfold projL projR
  congr 1
  · exact Finset.sum_congr rfl fun c _ => congrArg (· * w1 (ix2 (lo c) h)) (v5_lo x b i j c)
  · exact Finset.sum_congr rfl fun c _ => congrArg (· * w1 (ix2 (hi c) h)) (v5_hi x b i j c)

/-- The bias of the first layer, copied to every (b, i, j), at hidden unit h. -/
theorem v8_at (b1 : FVec Ideal S128 .f32) (b : Fin 4) (i j : Fin 512) (h : Fin 128) :
    Read.val_main_v8 (F := Ideal) b1 (ix4 b i j h) = b1 (ix1 h) := by
  rw [Read.val_main_v8_apply, Read.val_main_v7_apply]
  refine congrArg b1 (funext fun a => ?_)
  match a with
  | ⟨0, _⟩ => rfl

/-- The positive part of the first layer's output, at (b, i, j, h). -/
theorem v10_at (x : FVec Ideal S4x64x512 .f32) (w1 : FVec Ideal S128x128 .f32) (b1 : FVec Ideal S128 .f32)
    (b : Fin 4) (i j : Fin 512) (h : Fin 128) :
    Read.val_main_v10 (F := Ideal) x w1 b1 (ix4 b i j h)
      = max (projL x w1 b i h + projR x w1 b j h + b1 (ix1 h)) 0 := by
  show max (Read.val_main_v6 (F := Ideal) x w1 (ix4 b i j h) + Read.val_main_v8 (F := Ideal) b1 (ix4 b i j h))
      (Read.val_main_call0_v0 (F := Ideal) (ix4 b i j h)) = _
  rw [v6_at, v8_at, Read.val_main_call0_v0_apply]
  show max _ (Ideal.ofBits .f32 0x00000000#32) = _
  rw [Ideal.ofBits_zero_f32]

/-! ### The second layer -/

/-- The contraction with W2 over the 128 hidden units, at (b, i, j, 0). -/
theorem v11_at (x : FVec Ideal S4x64x512 .f32) (w1 : FVec Ideal S128x128 .f32) (b1 : FVec Ideal S128 .f32)
    (w2 : FVec Ideal S128x1 .f32) (b : Fin 4) (i j : Fin 512) :
    Read.val_main_v11 (F := Ideal) x w1 b1 w2 (ix4 b i j (0 : Fin 1))
      = ∑ h : Fin 128, max (projL x w1 b i h + projR x w1 b j h + b1 (ix1 h)) 0 * w2 (ix2 h (0 : Fin 1)) := by
  rw [Read.val_main_v11_apply]
  refine Finset.sum_congr rfl fun k _ => ?_
  have el : Read.lidx_main_v11 (ix4 b i j (0 : Fin 1)) k = ix4 b i j k := funext fun a => by
    match a with
    | ⟨0, _⟩ => rfl
    | ⟨1, _⟩ => rfl
    | ⟨2, _⟩ => rfl
    | ⟨3, _⟩ => rfl
  have er : Read.ridx_main_v11 (ix4 b i j (0 : Fin 1)) k = ix2 k (0 : Fin 1) := funext fun a => by
    match a with
    | ⟨0, _⟩ => rfl
    | ⟨1, _⟩ => rfl
  rw [el, er, v10_at]

/-- The bias of the second layer, copied to every (b, i, j). -/
theorem v13_at (b2 : FVec Ideal S1 .f32) (b : Fin 4) (i j : Fin 512) :
    Read.val_main_v13 (F := Ideal) b2 (ix4 b i j (0 : Fin 1)) = b2 (ix1 (0 : Fin 1)) := by
  rw [Read.val_main_v13_apply, Read.val_main_v12_apply]
  refine congrArg b2 (funext fun a => ?_)
  match a with
  | ⟨0, _⟩ => rfl

/-- The score with its unit axis dropped, at (b, i, j). -/
theorem v15_at (x : FVec Ideal S4x64x512 .f32) (w1 : FVec Ideal S128x128 .f32) (b1 : FVec Ideal S128 .f32)
    (w2 : FVec Ideal S128x1 .f32) (b2 : FVec Ideal S1 .f32) (b : Fin 4) (i j : Fin 512) :
    Read.val_main_v15 (F := Ideal) x w1 b1 w2 b2 (ix3 b i j) = score x w1 b1 w2 b2 b i j := by
  rw [Read.val_main_v15_apply]
  have e : Read.idx_main_v15 (ix3 b i j) = ix4 b i j (0 : Fin 1) := funext fun a => Fin.ext (by
    have hb := b.isLt
    have hi := i.isLt
    have hj := j.isLt
    match a with
    | ⟨0, _⟩ => show ((b.val * 512 + i.val) * 512 + j.val) / 262144 = b.val; omega
    | ⟨1, _⟩ => show ((b.val * 512 + i.val) * 512 + j.val) / 512 % 512 = i.val; omega
    | ⟨2, _⟩ => show ((b.val * 512 + i.val) * 512 + j.val) / 1 % 512 = j.val; omega
    | ⟨3, _⟩ => rfl)
  rw [e]
  show Read.val_main_v11 (F := Ideal) x w1 b1 w2 (ix4 b i j (0 : Fin 1))
      + Read.val_main_v13 (F := Ideal) b2 (ix4 b i j (0 : Fin 1)) = _
  rw [v11_at, v13_at]
  rfl

/-! ### The mask of the strict upper triangle -/

/-- A natural number below 512, as a 32-bit word read as a signed integer, is itself. -/
theorem toInt_ofNat_of_lt (n : Nat) (hn : n < 512) : (BitVec.ofNat 32 n).toInt = (n : Int) := by
  have ht : (BitVec.ofNat 32 n).toNat = n := by
    rw [BitVec.toNat_ofNat]
    omega
  rw [BitVec.toInt_eq_toNat_of_lt (by rw [ht]; omega), ht]

/-- The signed comparison "row + 0 ≥ column" on 32-bit words is the comparison of the two naturals below 512. -/
theorem cmp_at (i j : Fin 512) :
    IntOp.cmpi .sge (IntOp.addi (BitVec.ofNat 32 i.val) 0#32) (BitVec.ofNat 32 j.val)
      = if i.val < j.val then 0#1 else 1#1 := by
  show BitVec.ofBool ((BitVec.ofNat 32 j.val).sle (BitVec.ofNat 32 i.val + 0#32)) = _
  rw [BitVec.add_zero, BitVec.sle_eq_decide, toInt_ofNat_of_lt _ j.isLt, toInt_ofNat_of_lt _ i.isLt]
  by_cases hlt : i.val < j.val
  · rw [if_pos hlt, decide_eq_false (by omega)]
    rfl
  · rw [if_neg hlt, decide_eq_true (by omega)]
    rfl

/-- The mask, copied to every batch entry, at (b, i, j): 1 strictly above the diagonal, 0 on and below it. -/
theorem v19_at (b : Fin 4) (i j : Fin 512) :
    Read.val_main_v19 (F := Ideal) (ix3 b i j) = mask i j := by
  rw [Read.val_main_v19_apply, Read.val_main_v18_apply]
  have e : Read.idx_main_v18 (Read.idx_main_v19 (ix3 b i j)) = ix2 i j := funext fun a => by
    match a with
    | ⟨0, _⟩ => rfl
    | ⟨1, _⟩ => rfl
  rw [e]
  show Scalar.select
      (IntOp.cmpi .sge (IntOp.addi (BitVec.ofNat 32 i.val) (Read.val_main_call1_v1 (F := Ideal) (ix2 i j)))
        (BitVec.ofNat 32 j.val))
      (Read.val_main_call1_v5 (F := Ideal) (ix2 i j)) (Read.val_main_v16 (F := Ideal) (ix2 i j)) = _
  rw [Read.val_main_call1_v1_apply, Read.val_main_call1_v5_apply, Read.val_main_v16_apply]
  show Scalar.select (IntOp.cmpi .sge (IntOp.addi (BitVec.ofNat 32 i.val) 0#32) (BitVec.ofNat 32 j.val))
      (Ideal.ofBits .f32 0x00000000#32) (Ideal.ofBits .f32 0x3F800000#32) = _
  rw [cmp_at, Ideal.ofBits_zero_f32, Ideal.ofBits_one_f32]
  unfold mask
  by_cases hlt : i.val < j.val
  · rw [if_pos hlt, if_pos hlt, select_zero]
  · rw [if_neg hlt, if_neg hlt, select_one]

/-! ### The result -/

/-- The reference program's result, as a function of its five arguments, is the specification. -/
theorem ref_is_spec (x : FVec Ideal Cert.ReferenceIdeal.S4x64x512 .f32) (w1 : FVec Ideal Cert.ReferenceIdeal.S128x128 .f32) (b1 : FVec Ideal Cert.ReferenceIdeal.S128 .f32) (w2 : FVec Ideal Cert.ReferenceIdeal.S128x1 .f32) (b2 : FVec Ideal Cert.ReferenceIdeal.S1 .f32) :
    Cert.ReferenceIdeal.Read.val_main_v20 (F := Ideal) x w1 b1 w2 b2 = Cert.Spec.G x w1 b1 w2 b2 := by
  funext o
  obtain ⟨b, i, j, rfl⟩ : ∃ (b : Fin 4) (i j : Fin 512), o = ix3 b i j := ⟨o 0, o 1, o 2, eq_ix3 o⟩
  show Read.val_main_v15 (F := Ideal) x w1 b1 w2 b2 (ix3 b i j) * Read.val_main_v19 (F := Ideal) (ix3 b i j) = _
  rw [v15_at, v19_at, G_ix3]

end Cert.RefSide

end
-- ==== Proof.lean ====
/-
  The certificate of a pairwise two-layer scorer against its reference.

  The reference scores every ordered pair (i, j) of the 512 positions of each of 4 batch entries: it concatenates
  column i and column j of x[b] (64 channels each) into 128 channels, applies a 128 → 128 linear layer with bias, takes
  the positive part, applies a 128 → 1 linear layer with bias, and keeps the score strictly above the diagonal.
  The kernel never forms the concatenation. A first pipelined region multiplies every column of x[b] by the upper and
  by the lower 64 rows of the first layer's weights, set side by side (one 64-channel contraction per column instead
  of one 128-channel contraction per pair); a second region, over 128 × 128 tiles of pairs, adds the left column's
  upper-half term, the right column's lower-half term and the bias, takes the positive part, contracts with the second
  layer's weights along the hidden axis, adds its bias and multiplies by the indicator of row < column, computed from
  the tile's position in the grid.

  On the extended reals the two programs compute ONE function of the five arguments (the specification): the only
  law between them is that the contraction over the 128 concatenated channels is the contraction over the first 64
  plus the contraction over the last 64, which is re-association of a finite sum and holds for every extended real,
  so the finiteness of the inputs is never used. The maximum with zero, the sums, the products and the 0/1 mask are
  the same operations on both sides.

  The three frames: the two kernels' from the frame certificates of their two regions, the reference's from its run
  with the result dropped. The idealization rewrote no operation, so nothing is owed for it.
-/
import proofs.«159363_j61323543052293_1_alg».proof.Defs
import proofs.«159363_j61323543052293_1_alg».proof.Proof.Gen.Kernel
import proofs.«159363_j61323543052293_1_alg».proof.Proof.Gen.KernelIdeal
import proofs.«159363_j61323543052293_1_alg».proof.Proof.Gen.ReferenceIdeal
import proofs.«159363_j61323543052293_1_alg».proof.Proof.Gen.Pre_finite_inputs
import proofs.«159363_j61323543052293_1_alg».proof.Proof.Gen.ReferenceIdeal.Run
import proofs.«159363_j61323543052293_1_alg».proof.Proof.Gen.ReferenceIdeal.Read
import proofs.«159363_j61323543052293_1_alg».proof.Proof.FrameKernel
import proofs.«159363_j61323543052293_1_alg».proof.Proof.FrameKernelIdeal
import proofs.«159363_j61323543052293_1_alg».proof.Proof.KernelValue
import proofs.«159363_j61323543052293_1_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel terminates without a fault and returns its arguments unchanged. -/
theorem frame_kernel : Cert.frame_Kernel := fun m ρ _ => Cert.Kernel.GenP.frame m ρ

/-- So does the kernel read at the ideal values. -/
theorem frame_kernel_ideal : Cert.frame_KernelIdeal := fun m ρ _ => Cert.KernelIdeal.GenP.frame m ρ

/-- So does the reference: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the five arguments both programs end with the specification of those arguments in
    their result: the kernel by its two regions' write-backs, the reference by its composed stages. -/
theorem algebraic : Cert.algebraic_KernelIdeal_ReferenceIdeal := by
  intro m ρ m' ρ' _ hagree
  refine ⟨fun c => Cert.Spec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelSide.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.RefSide.ref_is_spec, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
